-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)) →
    ∃ (v0 : (c : Dev Cert.KernelIdeal.nD) → Buf (Elt Ideal) ((c.tc : Thread Cert.KernelIdeal.nD Cert.KernelIdeal.τ).loc Cert.KernelIdeal.main_v5)) (v1 : (c : Dev Cert.KernelIdeal.nD) → Buf (Elt Ideal) ((c.tc : Thread Cert.KernelIdeal.nD Cert.KernelIdeal.τ).loc Cert.KernelIdeal.main_v6)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v5) = v0 c
          ∧ r.2.mem ((c.tc : Thread Cert.KernelIdeal.nD Cert.KernelIdeal.τ).loc Cert.KernelIdeal.main_v6) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v31) = v0 c
          ∧ r.2.mem ((c.tc : Thread Cert.ReferenceIdeal.nD Cert.ReferenceIdeal.τ).loc Cert.ReferenceIdeal.main_v32) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S4096x1024 : Shape := ⟨2, ![4096, 1024]⟩
abbrev S1024x10 : Shape := ⟨2, ![1024, 10]⟩
abbrev S1024x1 : Shape := ⟨2, ![1024, 1]⟩
abbrev S12x20 : Shape := ⟨2, ![12, 20]⟩
abbrev S20 : Shape := ⟨1, ![20]⟩
abbrev S20x500 : Shape := ⟨2, ![20, 500]⟩
abbrev S500 : Shape := ⟨1, ![500]⟩
abbrev S500x200 : Shape := ⟨2, ![500, 200]⟩
abbrev S200 : Shape := ⟨1, ![200]⟩
abbrev S200x20 : Shape := ⟨2, ![200, 20]⟩
abbrev S_ : Shape := ⟨0, ![]⟩

class Facts : Prop where
  bcast_S_S4096x1024 : S_.BroadcastsInDim S4096x1024 (![] : Fin 0 → Fin S4096x1024.rank)
  reducesTo_S4096x1024_S_d0_1 : S4096x1024.ReducesTo [0, 1] S_
  h_S_ : 0 < S_.numel
  bcast_S_S1024x10 : S_.BroadcastsInDim S1024x10 (![] : Fin 0 → Fin S1024x10.rank)
  reducesTo_S1024x10_S_d0_1 : S1024x10.ReducesTo [0, 1] S_
  bcast_S_S1024x1 : S_.BroadcastsInDim S1024x1 (![] : Fin 0 → Fin S1024x1.rank)
  reducesTo_S1024x1_S_d0_1 : S1024x1.ReducesTo [0, 1] S_
  bcast_S_S12x20 : S_.BroadcastsInDim S12x20 (![] : Fin 0 → Fin S12x20.rank)
  reducesTo_S12x20_S_d0_1 : S12x20.ReducesTo [0, 1] S_
  bcast_S_S20 : S_.BroadcastsInDim S20 (![] : Fin 0 → Fin S20.rank)
  reducesTo_S20_S_d0 : S20.ReducesTo [0] S_
  bcast_S_S20x500 : S_.BroadcastsInDim S20x500 (![] : Fin 0 → Fin S20x500.rank)
  reducesTo_S20x500_S_d0_1 : S20x500.ReducesTo [0, 1] S_
  bcast_S_S500 : S_.BroadcastsInDim S500 (![] : Fin 0 → Fin S500.rank)
  reducesTo_S500_S_d0 : S500.ReducesTo [0] S_
  bcast_S_S500x200 : S_.BroadcastsInDim S500x200 (![] : Fin 0 → Fin S500x200.rank)
  reducesTo_S500x200_S_d0_1 : S500x200.ReducesTo [0, 1] S_
  bcast_S_S200 : S_.BroadcastsInDim S200 (![] : Fin 0 → Fin S200.rank)
  reducesTo_S200_S_d0 : S200.ReducesTo [0] S_
  bcast_S_S200x20 : S_.BroadcastsInDim S200x20 (![] : Fin 0 → Fin S200x20.rank)
  reducesTo_S200x20_S_d0_1 : S200x20.ReducesTo [0, 1] S_

variable [Facts]

def fn_part3 {F : FTy → Type} [FloatOps F] (main_arg11 : FVec F S20 .f32) (main_v48 : IVec S_ 1) (main_v49 : FVec F S200x20 .f32) (main_v50 : FVec F S200x20 .f32) : IVec S_ 1 :=
  let main_v51 : IVec S200x20 1 := cmpf .olt main_v49 main_v50
  let main_c_19 : IVec S_ 1 := constantI S_ 1 1#1
  let main_v52 : IVec S_ 1 := (fun x v => Host.reduce IntOp.andi x v reducesTo_S200x20_S_d0_1 h_S_) main_v51 main_c_19
  let main_v53 : IVec S_ 1 := andi main_v48 main_v52
  let main_v54 : FVec F S20 .f32 := Host.absf main_arg11
  let main_cst_20 : FVec F S_ .f32 := constant S_ .f32 0x7F800000#32
  let main_v55 : FVec F S20 .f32 := broadcastInDim S20 ![] bcast_S_S20 main_cst_20
  let main_v56 : IVec S20 1 := cmpf .olt main_v54 main_v55
  let main_c_21 : IVec S_ 1 := constantI S_ 1 1#1
  let main_v57 : IVec S_ 1 := (fun x v => Host.reduce IntOp.andi x v reducesTo_S20_S_d0 h_S_) main_v56 main_c_21
  let main_v58 : IVec S_ 1 := andi main_v53 main_v57
  main_v58

def fn_part2 {F : FTy → Type} [FloatOps F] (main_arg7 : FVec F S500 .f32) (main_arg8 : FVec F S500x200 .f32) (main_arg9 : FVec F S200 .f32) (main_arg10 : FVec F S200x20 .f32) (main_arg11 : FVec F S20 .f32) (main_v33 : IVec S_ 1) : IVec S_ 1 :=
  let main_v34 : FVec F S500 .f32 := Host.absf main_arg7
  let main_cst_12 : FVec F S_ .f32 := constant S_ .f32 0x7F800000#32
  let main_v35 : FVec F S500 .f32 := broadcastInDim S500 ![] bcast_S_S500 main_cst_12
  let main_v36 : IVec S500 1 := cmpf .olt main_v34 main_v35
  let main_c_13 : IVec S_ 1 := constantI S_ 1 1#1
  let main_v37 : IVec S_ 1 := (fun x v => Host.reduce IntOp.andi x v reducesTo_S500_S_d0 h_S_) main_v36 main_c_13
  let main_v38 : IVec S_ 1 := andi main_v33 main_v37
  let main_v39 : FVec F S500x200 .f32 := Host.absf main_arg8
  let main_cst_14 : FVec F S_ .f32 := constant S_ .f32 0x7F800000#32
  let main_v40 : FVec F S500x200 .f32 := broadcastInDim S500x200 ![] bcast_S_S500x200 main_cst_14
  let main_v41 : IVec S500x200 1 := cmpf .olt main_v39 main_v40
  let main_c_15 : IVec S_ 1 := constantI S_ 1 1#1
  let main_v42 : IVec S_ 1 := (fun x v => Host.reduce IntOp.andi x v reducesTo_S500x200_S_d0_1 h_S_) main_v41 main_c_15
  let main_v43 : IVec S_ 1 := andi main_v38 main_v42
  let main_v44 : FVec F S200 .f32 := Host.absf main_arg9
  let main_cst_16 : FVec F S_ .f32 := constant S_ .f32 0x7F800000#32
  let main_v45 : FVec F S200 .f32 := broadcastInDim S200 ![] bcast_S_S200 main_cst_16
  let main_v46 : IVec S200 1 := cmpf .olt main_v44 main_v45
  let main_c_17 : IVec S_ 1 := constantI S_ 1 1#1
  let main_v47 : IVec S_ 1 := (fun x v => Host.reduce IntOp.andi x v reducesTo_S200_S_d0 h_S_) main_v46 main_c_17
  let main_v48 : IVec S_ 1 := andi main_v43 main_v47
  let main_v49 : FVec F S200x20 .f32 := Host.absf main_arg10
  let main_cst_18 : FVec F S_ .f32 := constant S_ .f32 0x7F800000#32
  let main_v50 : FVec F S200x20 .f32 := broadcastInDim S200x20 ![] bcast_S_S200x20 main_cst_18
  fn_part3 (F := F) main_arg11 main_v48 main_v49 main_v50

def fn_part1 {F : FTy → Type} [FloatOps F] (main_arg4 : FVec F S12x20 .f32) (main_arg5 : FVec F S20 .f32) (main_arg6 : FVec F S20x500 .f32) (main_arg7 : FVec F S500 .f32) (main_arg8 : FVec F S500x200 .f32) (main_arg9 : FVec F S200 .f32) (main_arg10 : FVec F S200x20 .f32) (main_arg11 : FVec F S20 .f32) (main_v13 : IVec S_ 1) (main_v16 : IVec S1024x1 1) : IVec S_ 1 :=
  let main_c_5 : IVec S_ 1 := constantI S_ 1 1#1
  let main_v17 : IVec S_ 1 := (fun x v => Host.reduce IntOp.andi x v reducesTo_S1024x1_S_d0_1 h_S_) main_v16 main_c_5
  let main_v18 : IVec S_ 1 := andi main_v13 main_v17
  let main_v19 : FVec F S12x20 .f32 := Host.absf main_arg4
  let main_cst_6 : FVec F S_ .f32 := constant S_ .f32 0x7F800000#32
  let main_v20 : FVec F S12x20 .f32 := broadcastInDim S12x20 ![] bcast_S_S12x20 main_cst_6
  let main_v21 : IVec S12x20 1 := cmpf .olt main_v19 main_v20
  let main_c_7 : IVec S_ 1 := constantI S_ 1 1#1
  let main_v22 : IVec S_ 1 := (fun x v => Host.reduce IntOp.andi x v reducesTo_S12x20_S_d0_1 h_S_) main_v21 main_c_7
  let main_v23 : IVec S_ 1 := andi main_v18 main_v22
  let main_v24 : FVec F S20 .f32 := Host.absf main_arg5
  let main_cst_8 : FVec F S_ .f32 := constant S_ .f32 0x7F800000#32
  let main_v25 : FVec F S20 .f32 := broadcastInDim S20 ![] bcast_S_S20 main_cst_8
  let main_v26 : IVec S20 1 := cmpf .olt main_v24 main_v25
  let main_c_9 : IVec S_ 1 := constantI S_ 1 1#1
  let main_v27 : IVec S_ 1 := (fun x v => Host.reduce IntOp.andi x v reducesTo_S20_S_d0 h_S_) main_v26 main_c_9
  let main_v28 : IVec S_ 1 := andi main_v23 main_v27
  let main_v29 : FVec F S20x500 .f32 := Host.absf main_arg6
  let main_cst_10 : FVec F S_ .f32 := constant S_ .f32 0x7F800000#32
  let main_v30 : FVec F S20x500 .f32 := broadcastInDim S20x500 ![] bcast_S_S20x500 main_cst_10
  let main_v31 : IVec S20x500 1 := cmpf .olt main_v29 main_v30
  let main_c_11 : IVec S_ 1 := constantI S_ 1 1#1
  let main_v32 : IVec S_ 1 := (fun x v => Host.reduce IntOp.andi x v reducesTo_S20x500_S_d0_1 h_S_) main_v31 main_c_11
  let main_v33 : IVec S_ 1 := andi main_v28 main_v32
  fn_part2 (F := F) main_arg7 main_arg8 main_arg9 main_arg10 main_arg11 main_v33

def fn {F : FTy → Type} [FloatOps F] (main_arg0 : FVec F S4096x1024 .f32) (main_arg1 : FVec F S4096x1024 .f32) (main_arg2 : FVec F S1024x10 .f32) (main_arg3 : FVec F S1024x1 .f32) (main_arg4 : FVec F S12x20 .f32) (main_arg5 : FVec F S20 .f32) (main_arg6 : FVec F S20x500 .f32) (main_arg7 : FVec F S500 .f32) (main_arg8 : FVec F S500x200 .f32) (main_arg9 : FVec F S200 .f32) (main_arg10 : FVec F S200x20 .f32) (main_arg11 : FVec F S20 .f32) : IVec S_ 1 :=
  let main_v0 : FVec F S4096x1024 .f32 := Host.absf main_arg0
  let main_cst : FVec F S_ .f32 := constant S_ .f32 0x7F800000#32
  let main_v1 : FVec F S4096x1024 .f32 := broadcastInDim S4096x1024 ![] bcast_S_S4096x1024 main_cst
  let main_v2 : IVec S4096x1024 1 := cmpf .olt main_v0 main_v1
  let main_c : IVec S_ 1 := constantI S_ 1 1#1
  let main_v3 : IVec S_ 1 := (fun x v => Host.reduce IntOp.andi x v reducesTo_S4096x1024_S_d0_1 h_S_) main_v2 main_c
  let main_v4 : FVec F S4096x1024 .f32 := Host.absf main_arg1
  let main_cst_0 : FVec F S_ .f32 := constant S_ .f32 0x7F800000#32
  let main_v5 : FVec F S4096x1024 .f32 := broadcastInDim S4096x1024 ![] bcast_S_S4096x1024 main_cst_0
  let main_v6 : IVec S4096x1024 1 := cmpf .olt main_v4 main_v5
  let main_c_1 : IVec S_ 1 := constantI S_ 1 1#1
  let main_v7 : IVec S_ 1 := (fun x v => Host.reduce IntOp.andi x v reducesTo_S4096x1024_S_d0_1 h_S_) main_v6 main_c_1
  let main_v8 : IVec S_ 1 := andi main_v3 main_v7
  let main_v9 : FVec F S1024x10 .f32 := Host.absf main_arg2
  let main_cst_2 : FVec F S_ .f32 := constant S_ .f32 0x7F800000#32
  let main_v10 : FVec F S1024x10 .f32 := broadcastInDim S1024x10 ![] bcast_S_S1024x10 main_cst_2
  let main_v11 : IVec S1024x10 1 := cmpf .olt main_v9 main_v10
  let main_c_3 : IVec S_ 1 := constantI S_ 1 1#1
  let main_v12 : IVec S_ 1 := (fun x v => Host.reduce IntOp.andi x v reducesTo_S1024x10_S_d0_1 h_S_) main_v11 main_c_3
  let main_v13 : IVec S_ 1 := andi main_v8 main_v12
  let main_v14 : FVec F S1024x1 .f32 := Host.absf main_arg3
  let main_cst_4 : FVec F S_ .f32 := constant S_ .f32 0x7F800000#32
  let main_v15 : FVec F S1024x1 .f32 := broadcastInDim S1024x1 ![] bcast_S_S1024x1 main_cst_4
  let main_v16 : IVec S1024x1 1 := cmpf .olt main_v14 main_v15
  fn_part1 (F := F) main_arg4 main_arg5 main_arg6 main_arg7 main_arg8 main_arg9 main_arg10 main_arg11 main_v13 main_v16
-- ==== Kernel.lean ====
abbrev S4096x1024 : Shape := ⟨2, ![4096, 1024]⟩
abbrev S1024x10 : Shape := ⟨2, ![1024, 10]⟩
abbrev S1024x1 : Shape := ⟨2, ![1024, 1]⟩
abbrev S12x20 : Shape := ⟨2, ![12, 20]⟩
abbrev S20 : Shape := ⟨1, ![20]⟩
abbrev S20x500 : Shape := ⟨2, ![20, 500]⟩
abbrev S500 : Shape := ⟨1, ![500]⟩
abbrev S500x200 : Shape := ⟨2, ![500, 200]⟩
abbrev S200 : Shape := ⟨1, ![200]⟩
abbrev S200x20 : Shape := ⟨2, ![200, 20]⟩
abbrev S1x20 : Shape := ⟨2, ![1, 20]⟩
abbrev S1x500 : Shape := ⟨2, ![1, 500]⟩
abbrev S1x200 : Shape := ⟨2, ![1, 200]⟩
abbrev S4096x20 : Shape := ⟨2, ![4096, 20]⟩
abbrev S512x1024 : Shape := ⟨2, ![512, 1024]⟩
abbrev S512x20 : Shape := ⟨2, ![512, 20]⟩
abbrev S10x20 : Shape := ⟨2, ![10, 20]⟩
abbrev S1024x20 : Shape := ⟨2, ![1024, 20]⟩
abbrev S512x500 : Shape := ⟨2, ![512, 500]⟩
abbrev S512x200 : Shape := ⟨2, ![512, 200]⟩
abbrev S4096x10 : Shape := ⟨2, ![4096, 10]⟩

abbrev nBuf : Space → Nat
  | .hbm => 19
  | .vmem => 16
  | .smem => 0
  | _ => 0

abbrev bufTy : (tb : Table) → Fin (tcTables nBuf tb) → BufTy
  | .hbm, ⟨0, _⟩ => ⟨S4096x1024, .f32⟩
  | .hbm, ⟨1, _⟩ => ⟨S4096x1024, .f32⟩
  | .hbm, ⟨2, _⟩ => ⟨S1024x10, .f32⟩
  | .hbm, ⟨3, _⟩ => ⟨S1024x1, .f32⟩
  | .hbm, ⟨4, _⟩ => ⟨S12x20, .f32⟩
  | .hbm, ⟨5, _⟩ => ⟨S20, .f32⟩
  | .hbm, ⟨6, _⟩ => ⟨S20x500, .f32⟩
  | .hbm, ⟨7, _⟩ => ⟨S500, .f32⟩
  | .hbm, ⟨8, _⟩ => ⟨S500x200, .f32⟩
  | .hbm, ⟨9, _⟩ => ⟨S200, .f32⟩
  | .hbm, ⟨10, _⟩ => ⟨S200x20, .f32⟩
  | .hbm, ⟨11, _⟩ => ⟨S20, .f32⟩
  | .hbm, ⟨12, _⟩ => ⟨S1x20, .f32⟩
  | .hbm, ⟨13, _⟩ => ⟨S1x500, .f32⟩
  | .hbm, ⟨14, _⟩ => ⟨S1x200, .f32⟩
  | .hbm, ⟨15, _⟩ => ⟨S1x20, .f32⟩
  | .hbm, ⟨16, _⟩ => ⟨S4096x20, .f32⟩
  | .hbm, ⟨17, _⟩ => ⟨S4096x10, .f32⟩
  | .hbm, ⟨18, _⟩ => ⟨S4096x10, .f32⟩
  | .local _ .vmem, ⟨0, _⟩ => ⟨S512x1024, .f32⟩
  | .local _ .vmem, ⟨1, _⟩ => ⟨S512x1024, .f32⟩
  | .local _ .vmem, ⟨2, _⟩ => ⟨S512x1024, .f32⟩
  | .local _ .vmem, ⟨3, _⟩ => ⟨S512x1024, .f32⟩
  | .local _ .vmem, ⟨4, _⟩ => ⟨S1024x10, .f32⟩
  | .local _ .vmem, ⟨5, _⟩ => ⟨S1024x1, .f32⟩
  | .local _ .vmem, ⟨6, _⟩ => ⟨S12x20, .f32⟩
  | .local _ .vmem, ⟨7, _⟩ => ⟨S1x20, .f32⟩
  | .local _ .vmem, ⟨8, _⟩ => ⟨S20x500, .f32⟩
  | .local _ .vmem, ⟨9, _⟩ => ⟨S1x500, .f32⟩
  | .local _ .vmem, ⟨10, _⟩ => ⟨S500x200, .f32⟩
  | .local _ .vmem, ⟨11, _⟩ => ⟨S1x200, .f32⟩
  | .local _ .vmem, ⟨12, _⟩ => ⟨S200x20, .f32⟩
  | .local _ .vmem, ⟨13, _⟩ => ⟨S1x20, .f32⟩
  | .local _ .vmem, ⟨14, _⟩ => ⟨S512x20, .f32⟩
  | .local _ .vmem, ⟨15, _⟩ => ⟨S512x20, .f32⟩
  | _, _ => ⟨S4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_v0 : Ref sig .tc := ⟨.hbm, 12, rfl⟩
abbrev main_v1 : Ref sig .tc := ⟨.hbm, 13, rfl⟩
abbrev main_v2 : Ref sig .tc := ⟨.hbm, 14, rfl⟩
abbrev main_v3 : Ref sig .tc := ⟨.hbm, 15, rfl⟩
abbrev main_v4 : Ref sig .tc := ⟨.hbm, 16, rfl⟩
abbrev main_v5 : Ref sig .tc := ⟨.hbm, 17, rfl⟩
abbrev main_v6 : Ref sig .tc := ⟨.hbm, 18, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg6_0 : Ref sig .tc := ⟨.vmem, 8, rfl⟩
abbrev cc0_stg7_0 : Ref sig .tc := ⟨.vmem, 9, rfl⟩
abbrev cc0_stg8_0 : Ref sig .tc := ⟨.vmem, 10, rfl⟩
abbrev cc0_stg9_0 : Ref sig .tc := ⟨.vmem, 11, rfl⟩
abbrev cc0_stg10_0 : Ref sig .tc := ⟨.vmem, 12, rfl⟩
abbrev cc0_stg11_0 : Ref sig .tc := ⟨.vmem, 13, rfl⟩
abbrev cc0_stg12_0 : Ref sig .tc := ⟨.vmem, 14, rfl⟩
abbrev cc0_stg12_1 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem6_0 : DmaSem sig := 8
abbrev cc0_sem7_0 : DmaSem sig := 9
abbrev cc0_sem8_0 : DmaSem sig := 10
abbrev cc0_sem9_0 : DmaSem sig := 11
abbrev cc0_sem10_0 : DmaSem sig := 12
abbrev cc0_sem11_0 : DmaSem sig := 13
abbrev cc0_sem12_0 : DmaSem sig := 14
abbrev cc0_sem12_1 : DmaSem sig := 15

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_12 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S1024x10 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1024x1 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S12x20 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x20 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S20x500 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S1x500 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S500x200 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S1x200 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 1 → Memref sig .tc .vmem S200x20 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 1 → Memref sig .tc .vmem S1x20 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false]

abbrev stage0_12 : Fin 2 → Memref sig .tc .vmem S512x20 .f32 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true]

class Facts₀ : Prop where
  shapeCasts_S20_S1x20 : S20.ShapeCasts S1x20
  shapeCasts_S500_S1x500 : S500.ShapeCasts S1x500
  shapeCasts_S200_S1x200 : S200.ShapeCasts S1x200
  inb_S512x1024_S512x1024_0_0 : ∀ a, (![0, 0] : Fin 2 → Nat) a + S512x1024.size a ≤ S512x1024.size a
  h_S512x1024 : 0 < S512x1024.numel
  inb_S12x20_S12x20_0_0 : ∀ a, (![0, 0] : Fin 2 → Nat) a + S12x20.size a ≤ S12x20.size a
  h_S12x20 : 0 < S12x20.numel
  inb_S1024x10_S1024x10_0_0 : ∀ a, (![0, 0] : Fin 2 → Nat) a + S1024x10.size a ≤ S1024x10.size a
  h_S1024x10 : 0 < S1024x10.numel
  slices_S12x20_o1_0_S10x20 : S12x20.Slices ![1, 0] S10x20
  slices_S12x20_o0_0_S1x20 : S12x20.Slices ![0, 0] S1x20
  broadcasts_S1x20_S1024x20 : S1x20.Broadcasts S1024x20
  inb_S1024x1_S1024x1_0_0 : ∀ a, (![0, 0] : Fin 2 → Nat) a + S1024x1.size a ≤ S1024x1.size a
  h_S1024x1 : 0 < S1024x1.numel
  slices_S12x20_o11_0_S1x20 : S12x20.Slices ![11, 0] S1x20
  broadcasts_S1024x1_S1024x20 : S1024x1.Broadcasts S1024x20
  inb_S1x20_S1x20_0_0 : ∀ a, (![0, 0] : Fin 2 → Nat) a + S1x20.size a ≤ S1x20.size a
  h_S1x20 : 0 < S1x20.numel
  shapeCasts_S1x20_S1x20 : S1x20.ShapeCasts S1x20
  inb_S20x500_S20x500_0_0 : ∀ a, (![0, 0] : Fin 2 → Nat) a + S20x500.size a ≤ S20x500.size a
  h_S20x500 : 0 < S20x500.numel
  inb_S1x500_S1x500_0_0 : ∀ a, (![0, 0] : Fin 2 → Nat) a + S1x500.size a ≤ S1x500.size a
  h_S1x500 : 0 < S1x500.numel
  shapeCasts_S1x500_S1x500 : S1x500.ShapeCasts S1x500
  broadcasts_S1x500_S512x500 : S1x500.Broadcasts S512x500
  inb_S500x200_S500x200_0_0 : ∀ a, (![0, 0] : Fin 2 → Nat) a + S500x200.size a ≤ S500x200.size a
  h_S500x200 : 0 < S500x200.numel
  inb_S1x200_S1x200_0_0 : ∀ a, (![0, 0] : Fin 2 → Nat) a + S1x200.size a ≤ S1x200.size a
  h_S1x200 : 0 < S1x200.numel
  shapeCasts_S1x200_S1x200 : S1x200.ShapeCasts S1x200
  broadcasts_S1x200_S512x200 : S1x200.Broadcasts S512x200
  inb_S200x20_S200x20_0_0 : ∀ a, (![0, 0] : Fin 2 → Nat) a + S200x20.size a ≤ S200x20.size a
  h_S200x20 : 0 < S200x20.numel
  broadcasts_S1x20_S512x20 : S1x20.Broadcasts S512x20
  inb_S512x20_S512x20_0_0 : ∀ a, (![0, 0] : Fin 2 → Nat) a + S512x20.size a ≤ S512x20.size a
  h_S512x20 : 0 < S512x20.numel
  slices_S4096x20_S4096x10_0_0 : S4096x20.Slices ![0, 0] S4096x10
  slices_S4096x20_S4096x10_0_10 : S4096x20.Slices ![0, 10] S4096x10
  dot_S1024x10_S10x20_S1024x20_1_0_0_1_n_n_wf : DotDims.WF S1024x10 S10x20 S1024x20 [1] [0] [0] [1] [] []
  dot_S512x1024_S1024x20_S512x20_1_0_0_1_n_n_wf : DotDims.WF S512x1024 S1024x20 S512x20 [1] [0] [0] [1] [] []
  dot_S512x20_S20x500_S512x500_1_0_0_1_n_n_wf : DotDims.WF S512x20 S20x500 S512x500 [1] [0] [0] [1] [] []
  dot_S512x500_S500x200_S512x200_1_0_0_1_n_n_wf : DotDims.WF S512x500 S500x200 S512x200 [1] [0] [0] [1] [] []
  dot_S512x200_S200x20_S512x20_1_0_0_1_n_n_wf : DotDims.WF S512x200 S200x20 S512x20 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S512x1024.size a ≤ S4096x1024.size a
  hwx0_0 : ∀ i : grid0.Coords, EltTy.bits .f32 = 32 ∨ (Rect.block (s := S4096x1024) S512x1024.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S512x1024.size a ≤ S4096x1024.size a
  hwx0_1 : ∀ i : grid0.Coords, EltTy.bits .f32 = 32 ∨ (Rect.block (s := S4096x1024) S512x1024.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1024x10.size a ≤ S1024x10.size a
  hwx0_2 : ∀ i : grid0.Coords, EltTy.bits .f32 = 32 ∨ (Rect.block (s := S1024x10) S1024x10.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S1024x1.size a ≤ S1024x1.size a
  hwx0_3 : ∀ i : grid0.Coords, EltTy.bits .f32 = 32 ∨ (Rect.block (s := S1024x1) S1024x1.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S12x20.size a ≤ S12x20.size a
  hwx0_4 : ∀ i : grid0.Coords, EltTy.bits .f32 = 32 ∨ (Rect.block (s := S12x20) S12x20.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S1x20.size a ≤ S1x20.size a
  hwx0_5 : ∀ i : grid0.Coords, EltTy.bits .f32 = 32 ∨ (Rect.block (s := S1x20) S1x20.size (cc0_transform_5 i) (hinb0_5 i)).WholeWords (EltTy.packing .f32)
  hstage0_6 : ∀ j, (stage0_6 j).IsWhole
  nbuf0_6 : grid0.bufCount reads0_6 true = 1
  hreads0_6 : ∀ i i' : grid0.Coords, (∀ a, reads0_6 a = true → i a = i' a) → cc0_transform_6 i = cc0_transform_6 i'
  hinb0_6 : ∀ (i : grid0.Coords) a, (cc0_transform_6 i a + 1) * S20x500.size a ≤ S20x500.size a
  hwx0_6 : ∀ i : grid0.Coords, EltTy.bits .f32 = 32 ∨ (Rect.block (s := S20x500) S20x500.size (cc0_transform_6 i) (hinb0_6 i)).WholeWords (EltTy.packing .f32)
  hstage0_7 : ∀ j, (stage0_7 j).IsWhole
  nbuf0_7 : grid0.bufCount reads0_7 true = 1
  hreads0_7 : ∀ i i' : grid0.Coords, (∀ a, reads0_7 a = true → i a = i' a) → cc0_transform_7 i = cc0_transform_7 i'
  hinb0_7 : ∀ (i : grid0.Coords) a, (cc0_transform_7 i a + 1) * S1x500.size a ≤ S1x500.size a
  hwx0_7 : ∀ i : grid0.Coords, EltTy.bits .f32 = 32 ∨ (Rect.block (s := S1x500) S1x500.size (cc0_transform_7 i) (hinb0_7 i)).WholeWords (EltTy.packing .f32)
  hstage0_8 : ∀ j, (stage0_8 j).IsWhole
  nbuf0_8 : grid0.bufCount reads0_8 true = 1
  hreads0_8 : ∀ i i' : grid0.Coords, (∀ a, reads0_8 a = true → i a = i' a) → cc0_transform_8 i = cc0_transform_8 i'
  hinb0_8 : ∀ (i : grid0.Coords) a, (cc0_transform_8 i a + 1) * S500x200.size a ≤ S500x200.size a
  hwx0_8 : ∀ i : grid0.Coords, EltTy.bits .f32 = 32 ∨ (Rect.block (s := S500x200) S500x200.size (cc0_transform_8 i) (hinb0_8 i)).WholeWords (EltTy.packing .f32)
  hstage0_9 : ∀ j, (stage0_9 j).IsWhole
  nbuf0_9 : grid0.bufCount reads0_9 true = 1
  hreads0_9 : ∀ i i' : grid0.Coords, (∀ a, reads0_9 a = true → i a = i' a) → cc0_transform_9 i = cc0_transform_9 i'
  hinb0_9 : ∀ (i : grid0.Coords) a, (cc0_transform_9 i a + 1) * S1x200.size a ≤ S1x200.size a
  hwx0_9 : ∀ i : grid0.Coords, EltTy.bits .f32 = 32 ∨ (Rect.block (s := S1x200) S1x200.size (cc0_transform_9 i) (hinb0_9 i)).WholeWords (EltTy.packing .f32)
  hstage0_10 : ∀ j, (stage0_10 j).IsWhole
  nbuf0_10 : grid0.bufCount reads0_10 true = 1
  hreads0_10 : ∀ i i' : grid0.Coords, (∀ a, reads0_10 a = true → i a = i' a) → cc0_transform_10 i = cc0_transform_10 i'
  hinb0_10 : ∀ (i : grid0.Coords) a, (cc0_transform_10 i a + 1) * S200x20.size a ≤ S200x20.size a
  hwx0_10 : ∀ i : grid0.Coords, EltTy.bits .f32 = 32 ∨ (Rect.block (s := S200x20) S200x20.size (cc0_transform_10 i) (hinb0_10 i)).WholeWords (EltTy.packing .f32)
  hstage0_11 : ∀ j, (stage0_11 j).IsWhole
  nbuf0_11 : grid0.bufCount reads0_11 true = 1
  hreads0_11 : ∀ i i' : grid0.Coords, (∀ a, reads0_11 a = true → i a = i' a) → cc0_transform_11 i = cc0_transform_11 i'
  hinb0_11 : ∀ (i : grid0.Coords) a, (cc0_transform_11 i a + 1) * S1x20.size a ≤ S1x20.size a
  hwx0_11 : ∀ i : grid0.Coords, EltTy.bits .f32 = 32 ∨ (Rect.block (s := S1x20) S1x20.size (cc0_transform_11 i) (hinb0_11 i)).WholeWords (EltTy.packing .f32)
  hstage0_12 : ∀ j, (stage0_12 j).IsWhole
  nbuf0_12 : grid0.bufCount reads0_12 false = 2
  hreads0_12 : ∀ i i' : grid0.Coords, (∀ a, reads0_12 a = true → i a = i' a) → cc0_transform_12 i = cc0_transform_12 i'
  hinb0_12 : ∀ (i : grid0.Coords) a, (cc0_transform_12 i a + 1) * S512x20.size a ≤ S4096x20.size a
  hwx0_12 : ∀ i : grid0.Coords, EltTy.bits .f32 = 32 ∨ (Rect.block (s := S4096x20) S512x20.size (cc0_transform_12 i) (hinb0_12 i)).WholeWords (EltTy.packing .f32)

variable [Facts₀]

def dot_S1024x10_S10x20_S1024x20_1_0_0_1_n_n : DotDims S1024x10 S10x20 S1024x20 where
  lhsContracting := [1]
  rhsContracting := [0]
  lhsNonContracting := [0]
  rhsNonContracting := [1]
  lhsBatch := []
  rhsBatch := []
  wf := dot_S1024x10_S10x20_S1024x20_1_0_0_1_n_n_wf
def dot_S512x1024_S1024x20_S512x20_1_0_0_1_n_n : DotDims S512x1024 S1024x20 S512x20 where
  lhsContracting := [1]
  rhsContracting := [0]
  lhsNonContracting := [0]
  rhsNonContracting := [1]
  lhsBatch := []
  rhsBatch := []
  wf := dot_S512x1024_S1024x20_S512x20_1_0_0_1_n_n_wf
def dot_S512x20_S20x500_S512x500_1_0_0_1_n_n : DotDims S512x20 S20x500 S512x500 where
  lhsContracting := [1]
  rhsContracting := [0]
  lhsNonContracting := [0]
  rhsNonContracting := [1]
  lhsBatch := []
  rhsBatch := []
  wf := dot_S512x20_S20x500_S512x500_1_0_0_1_n_n_wf
def dot_S512x500_S500x200_S512x200_1_0_0_1_n_n : DotDims S512x500 S500x200 S512x200 where
  lhsContracting := [1]
  rhsContracting := [0]
  lhsNonContracting := [0]
  rhsNonContracting := [1]
  lhsBatch := []
  rhsBatch := []
  wf := dot_S512x500_S500x200_S512x200_1_0_0_1_n_n_wf
def dot_S512x200_S200x20_S512x20_1_0_0_1_n_n : DotDims S512x200 S200x20 S512x20 where
  lhsContracting := [1]
  rhsContracting := [0]
  lhsNonContracting := [0]
  rhsNonContracting := [1]
  lhsBatch := []
  rhsBatch := []
  wf := dot_S512x200_S200x20_S512x20_1_0_0_1_n_n_wf

abbrev win0_0 : Pipeline.Window sig grid0 :=
  Pipeline.Window.ofSpec (Memref.whole main_arg0) S512x1024.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S512x1024.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg2) S1024x10.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_arg3) S1024x1.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_arg4) S12x20.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v0) S1x20.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_arg6) S20x500.size cc0_transform_6 reads0_6 false true 1 stage0_6 sem0_6
    hrank0 hreads0_6 hinb0_6 nbuf0_6 (Memref.isWhole_whole _) hwx0_6 hstage0_6

abbrev win0_7 : Pipeline.Window sig grid0 :=
  Pipeline.Window.ofSpec (Memref.whole main_v1) S1x500.size cc0_transform_7 reads0_7 false true 1 stage0_7 sem0_7
    hrank0 hreads0_7 hinb0_7 nbuf0_7 (Memref.isWhole_whole _) hwx0_7 hstage0_7

abbrev win0_8 : Pipeline.Window sig grid0 :=
  Pipeline.Window.ofSpec (Memref.whole main_arg8) S500x200.size cc0_transform_8 reads0_8 false true 1 stage0_8 sem0_8
    hrank0 hreads0_8 hinb0_8 nbuf0_8 (Memref.isWhole_whole _) hwx0_8 hstage0_8

abbrev win0_9 : Pipeline.Window sig grid0 :=
  Pipeline.Window.ofSpec (Memref.whole main_v2) S1x200.size cc0_transform_9 reads0_9 false true 1 stage0_9 sem0_9
    hrank0 hreads0_9 hinb0_9 nbuf0_9 (Memref.isWhole_whole _) hwx0_9 hstage0_9

abbrev win0_10 : Pipeline.Window sig grid0 :=
  Pipeline.Window.ofSpec (Memref.whole main_arg10) S200x20.size cc0_transform_10 reads0_10 false true 1 stage0_10 sem0_10
    hrank0 hreads0_10 hinb0_10 nbuf0_10 (Memref.isWhole_whole _) hwx0_10 hstage0_10

abbrev win0_11 : Pipeline.Window sig grid0 :=
  Pipeline.Window.ofSpec (Memref.whole main_v3) S1x20.size cc0_transform_11 reads0_11 false true 1 stage0_11 sem0_11
    hrank0 hreads0_11 hinb0_11 nbuf0_11 (Memref.isWhole_whole _) hwx0_11 hstage0_11

abbrev win0_12 : Pipeline.Window sig grid0 :=
  Pipeline.Window.ofSpec (Memref.whole main_v4) S512x20.size cc0_transform_12 reads0_12 true false 2 stage0_12 sem0_12
    hrank0 hreads0_12 hinb0_12 nbuf0_12 (Memref.isWhole_whole _) hwx0_12 hstage0_12

abbrev win0 : Fin 13 → Pipeline.Window sig grid0 := fun | 0 => win0_0 | 1 => win0_1 | 2 => win0_2 | 3 => win0_3 | 4 => win0_4 | 5 => win0_5 | 6 => win0_6 | 7 => win0_7 | 8 => win0_8 | 9 => win0_9 | 10 => win0_10 | 11 => win0_11 | 12 => win0_12 | ⟨_ + 13, h⟩ => absurd h (Nat.not_lt.2 (Nat.le_add_left _ _))
abbrev spec0 : Fin 13 → Pipeline.WinSpec sig grid0.rank := fun w => (win0 w).toWinSpec

class Facts : Prop extends Facts₀ where

variable [Facts]
-- ==== ReferenceIdeal.lean ====
abbrev S4096x1024 : Shape := ⟨2, ![4096, 1024]⟩
abbrev S1024x10 : Shape := ⟨2, ![1024, 10]⟩
abbrev S1024x1 : Shape := ⟨2, ![1024, 1]⟩
abbrev S12x20 : Shape := ⟨2, ![12, 20]⟩
abbrev S20 : Shape := ⟨1, ![20]⟩
abbrev S20x500 : Shape := ⟨2, ![20, 500]⟩
abbrev S500 : Shape := ⟨1, ![500]⟩
abbrev S500x200 : Shape := ⟨2, ![500, 200]⟩
abbrev S200 : Shape := ⟨1, ![200]⟩
abbrev S200x20 : Shape := ⟨2, ![200, 20]⟩
abbrev S4096x1024x1 : Shape := ⟨3, ![4096, 1024, 1]⟩
abbrev S1x1024x10 : Shape := ⟨3, ![1, 1024, 10]⟩
abbrev S4096x1024x10 : Shape := ⟨3, ![4096, 1024, 10]⟩
abbrev S1x1024x1 : Shape := ⟨3, ![1, 1024, 1]⟩
abbrev S4096x1024x12 : Shape := ⟨3, ![4096, 1024, 12]⟩
abbrev S4096x1024x20 : Shape := ⟨3, ![4096, 1024, 20]⟩
abbrev S1x1x20 : Shape := ⟨3, ![1, 1, 20]⟩
abbrev S_ : Shape := ⟨0, ![]⟩
abbrev S4096x20 : Shape := ⟨2, ![4096, 20]⟩
abbrev S4096x500 : Shape := ⟨2, ![4096, 500]⟩
abbrev S1x500 : Shape := ⟨2, ![1, 500]⟩
abbrev S4096x200 : Shape := ⟨2, ![4096, 200]⟩
abbrev S1x200 : Shape := ⟨2, ![1, 200]⟩
abbrev S1x20 : Shape := ⟨2, ![1, 20]⟩
abbrev S4096x10 : Shape := ⟨2, ![4096, 10]⟩

abbrev nBuf : Space → Nat
  | .hbm => 52
  | .vmem => 0
  | .smem => 0
  | _ => 0

abbrev bufTy : (tb : Table) → Fin (tcTables nBuf tb) → BufTy
  | .hbm, ⟨0, _⟩ => ⟨S4096x1024, .f32⟩
  | .hbm, ⟨1, _⟩ => ⟨S4096x1024, .f32⟩
  | .hbm, ⟨2, _⟩ => ⟨S1024x10, .f32⟩
  | .hbm, ⟨3, _⟩ => ⟨S1024x1, .f32⟩
  | .hbm, ⟨4, _⟩ => ⟨S12x20, .f32⟩
  | .hbm, ⟨5, _⟩ => ⟨S20, .f32⟩
  | .hbm, ⟨6, _⟩ => ⟨S20x500, .f32⟩
  | .hbm, ⟨7, _⟩ => ⟨S500, .f32⟩
  | .hbm, ⟨8, _⟩ => ⟨S500x200, .f32⟩
  | .hbm, ⟨9, _⟩ => ⟨S200, .f32⟩
  | .hbm, ⟨10, _⟩ => ⟨S200x20, .f32⟩
  | .hbm, ⟨11, _⟩ => ⟨S20, .f32⟩
  | .hbm, ⟨12, _⟩ => ⟨S4096x1024x1, .f32⟩
  | .hbm, ⟨13, _⟩ => ⟨S1x1024x10, .f32⟩
  | .hbm, ⟨14, _⟩ => ⟨S4096x1024x10, .f32⟩
  | .hbm, ⟨15, _⟩ => ⟨S4096x1024x10, .f32⟩
  | .hbm, ⟨16, _⟩ => ⟨S4096x1024x10, .f32⟩
  | .hbm, ⟨17, _⟩ => ⟨S1x1024x1, .f32⟩
  | .hbm, ⟨18, _⟩ => ⟨S4096x1024x1, .f32⟩
  | .hbm, ⟨19, _⟩ => ⟨S4096x1024x12, .f32⟩
  | .hbm, ⟨20, _⟩ => ⟨S4096x1024x20, .f32⟩
  | .hbm, ⟨21, _⟩ => ⟨S1x1x20, .f32⟩
  | .hbm, ⟨22, _⟩ => ⟨S4096x1024x20, .f32⟩
  | .hbm, ⟨23, _⟩ => ⟨S4096x1024x20, .f32⟩
  | .hbm, ⟨24, _⟩ => ⟨S4096x1024x1, .f32⟩
  | .hbm, ⟨25, _⟩ => ⟨S4096x1024x20, .f32⟩
  | .hbm, ⟨26, _⟩ => ⟨S4096x1024x20, .f32⟩
  | .hbm, ⟨27, _⟩ => ⟨S_, .f32⟩
  | .hbm, ⟨28, _⟩ => ⟨S4096x20, .f32⟩
  | .hbm, ⟨29, _⟩ => ⟨S_, .f32⟩
  | .hbm, ⟨30, _⟩ => ⟨S4096x20, .f32⟩
  | .hbm, ⟨31, _⟩ => ⟨S4096x20, .f32⟩
  | .hbm, ⟨32, _⟩ => ⟨S4096x500, .f32⟩
  | .hbm, ⟨33, _⟩ => ⟨S1x500, .f32⟩
  | .hbm, ⟨34, _⟩ => ⟨S4096x500, .f32⟩
  | .hbm, ⟨35, _⟩ => ⟨S4096x500, .f32⟩
  | .hbm, ⟨36, _⟩ => ⟨S_, .f32⟩
  | .hbm, ⟨37, _⟩ => ⟨S4096x500, .f32⟩
  | .hbm, ⟨38, _⟩ => ⟨S4096x500, .f32⟩
  | .hbm, ⟨39, _⟩ => ⟨S4096x200, .f32⟩
  | .hbm, ⟨40, _⟩ => ⟨S1x200, .f32⟩
  | .hbm, ⟨41, _⟩ => ⟨S4096x200, .f32⟩
  | .hbm, ⟨42, _⟩ => ⟨S4096x200, .f32⟩
  | .hbm, ⟨43, _⟩ => ⟨S_, .f32⟩
  | .hbm, ⟨44, _⟩ => ⟨S4096x200, .f32⟩
  | .hbm, ⟨45, _⟩ => ⟨S4096x200, .f32⟩
  | .hbm, ⟨46, _⟩ => ⟨S4096x20, .f32⟩
  | .hbm, ⟨47, _⟩ => ⟨S1x20, .f32⟩
  | .hbm, ⟨48, _⟩ => ⟨S4096x20, .f32⟩
  | .hbm, ⟨49, _⟩ => ⟨S4096x20, .f32⟩
  | .hbm, ⟨50, _⟩ => ⟨S4096x10, .f32⟩
  | .hbm, ⟨51, _⟩ => ⟨S4096x10, .f32⟩
  | _, _ => ⟨S4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_v0 : Ref sig .tc := ⟨.hbm, 12, rfl⟩
abbrev main_v1 : Ref sig .tc := ⟨.hbm, 13, rfl⟩
abbrev main_v2 : Ref sig .tc := ⟨.hbm, 14, rfl⟩
abbrev main_v3 : Ref sig .tc := ⟨.hbm, 15, rfl⟩
abbrev main_v4 : Ref sig .tc := ⟨.hbm, 16, rfl⟩
abbrev main_v5 : Ref sig .tc := ⟨.hbm, 17, rfl⟩
abbrev main_v6 : Ref sig .tc := ⟨.hbm, 18, rfl⟩
abbrev main_v7 : Ref sig .tc := ⟨.hbm, 19, rfl⟩
abbrev main_v8 : Ref sig .tc := ⟨.hbm, 20, rfl⟩
abbrev main_v9 : Ref sig .tc := ⟨.hbm, 21, rfl⟩
abbrev main_v10 : Ref sig .tc := ⟨.hbm, 22, rfl⟩
abbrev main_v11 : Ref sig .tc := ⟨.hbm, 23, rfl⟩
abbrev main_v12 : Ref sig .tc := ⟨.hbm, 24, rfl⟩
abbrev main_v13 : Ref sig .tc := ⟨.hbm, 25, rfl⟩
abbrev main_v14 : Ref sig .tc := ⟨.hbm, 26, rfl⟩
abbrev main_cst : Ref sig .tc := ⟨.hbm, 27, rfl⟩
abbrev main_v15 : Ref sig .tc := ⟨.hbm, 28, rfl⟩
abbrev main_call0_cst : Ref sig .tc := ⟨.hbm, 29, rfl⟩
abbrev main_call0_v0 : Ref sig .tc := ⟨.hbm, 30, rfl⟩
abbrev main_v16 : Ref sig .tc := ⟨.hbm, 31, rfl⟩
abbrev main_v17 : Ref sig .tc := ⟨.hbm, 32, rfl⟩
abbrev main_v18 : Ref sig .tc := ⟨.hbm, 33, rfl⟩
abbrev main_v19 : Ref sig .tc := ⟨.hbm, 34, rfl⟩
abbrev main_v20 : Ref sig .tc := ⟨.hbm, 35, rfl⟩
abbrev main_call1_cst : Ref sig .tc := ⟨.hbm, 36, rfl⟩
abbrev main_call1_v0 : Ref sig .tc := ⟨.hbm, 37, rfl⟩
abbrev main_v21 : Ref sig .tc := ⟨.hbm, 38, rfl⟩
abbrev main_v22 : Ref sig .tc := ⟨.hbm, 39, rfl⟩
abbrev main_v23 : Ref sig .tc := ⟨.hbm, 40, rfl⟩
abbrev main_v24 : Ref sig .tc := ⟨.hbm, 41, rfl⟩
abbrev main_v25 : Ref sig .tc := ⟨.hbm, 42, rfl⟩
abbrev main_call2_cst : Ref sig .tc := ⟨.hbm, 43, rfl⟩
abbrev main_call2_v0 : Ref sig .tc := ⟨.hbm, 44, rfl⟩
abbrev main_v26 : Ref sig .tc := ⟨.hbm, 45, rfl⟩
abbrev main_v27 : Ref sig .tc := ⟨.hbm, 46, rfl⟩
abbrev main_v28 : Ref sig .tc := ⟨.hbm, 47, rfl⟩
abbrev main_v29 : Ref sig .tc := ⟨.hbm, 48, rfl⟩
abbrev main_v30 : Ref sig .tc := ⟨.hbm, 49, rfl⟩
abbrev main_v31 : Ref sig .tc := ⟨.hbm, 50, rfl⟩
abbrev main_v32 : Ref sig .tc := ⟨.hbm, 51, rfl⟩

abbrev nD : Nat := 1
abbrev τ : Topo := Topo.v7x

variable {F : FTy → Type} [FloatOps F]

class Facts₀ : Prop where
  bcast_S4096x1024_S4096x1024x1_0_1 : S4096x1024.BroadcastsInDim S4096x1024x1 (![0, 1] : Fin 2 → Fin S4096x1024x1.rank)
  bcast_S1024x10_S1x1024x10_1_2 : S1024x10.BroadcastsInDim S1x1024x10 (![1, 2] : Fin 2 → Fin S1x1024x10.rank)
  bcast_S4096x1024x1_S4096x1024x10_0_1_2 : S4096x1024x1.BroadcastsInDim S4096x1024x10 (![0, 1, 2] : Fin 3 → Fin S4096x1024x10.rank)
  bcast_S1x1024x10_S4096x1024x10_0_1_2 : S1x1024x10.BroadcastsInDim S4096x1024x10 (![0, 1, 2] : Fin 3 → Fin S4096x1024x10.rank)
  bcast_S1024x1_S1x1024x1_1_2 : S1024x1.BroadcastsInDim S1x1024x1 (![1, 2] : Fin 2 → Fin S1x1024x1.rank)
  bcast_S1x1024x1_S4096x1024x1_0_1_2 : S1x1024x1.BroadcastsInDim S4096x1024x1 (![0, 1, 2] : Fin 3 → Fin S4096x1024x1.rank)
  concatenates_S4096x1024x1_S4096x1024x10_S4096x1024x1_S4096x1024x12_d2 : Shape.Concatenates [S4096x1024x1, S4096x1024x10, S4096x1024x1] S4096x1024x12 2
  bcast_S20_S1x1x20_2 : S20.BroadcastsInDim S1x1x20 (![2] : Fin 1 → Fin S1x1x20.rank)
  bcast_S1x1x20_S4096x1024x20_0_1_2 : S1x1x20.BroadcastsInDim S4096x1024x20 (![0, 1, 2] : Fin 3 → Fin S4096x1024x20.rank)
  bcast_S4096x1024x1_S4096x1024x20_0_1_2 : S4096x1024x1.BroadcastsInDim S4096x1024x20 (![0, 1, 2] : Fin 3 → Fin S4096x1024x20.rank)
  reducesTo_S4096x1024x20_S4096x20_d1 : S4096x1024x20.ReducesTo [1] S4096x20
  h_S_ : 0 < S_.numel
  bcast_S_S4096x20 : S_.BroadcastsInDim S4096x20 (![] : Fin 0 → Fin S4096x20.rank)
  bcast_S500_S1x500_1 : S500.BroadcastsInDim S1x500 (![1] : Fin 1 → Fin S1x500.rank)
  bcast_S1x500_S4096x500_0_1 : S1x500.BroadcastsInDim S4096x500 (![0, 1] : Fin 2 → Fin S4096x500.rank)
  bcast_S_S4096x500 : S_.BroadcastsInDim S4096x500 (![] : Fin 0 → Fin S4096x500.rank)
  bcast_S200_S1x200_1 : S200.BroadcastsInDim S1x200 (![1] : Fin 1 → Fin S1x200.rank)
  bcast_S1x200_S4096x200_0_1 : S1x200.BroadcastsInDim S4096x200 (![0, 1] : Fin 2 → Fin S4096x200.rank)
  bcast_S_S4096x200 : S_.BroadcastsInDim S4096x200 (![] : Fin 0 → Fin S4096x200.rank)
  bcast_S20_S1x20_1 : S20.BroadcastsInDim S1x20 (![1] : Fin 1 → Fin S1x20.rank)
  bcast_S1x20_S4096x20_0_1 : S1x20.BroadcastsInDim S4096x20 (![0, 1] : Fin 2 → Fin S4096x20.rank)
  slices_S4096x20_S4096x10_0_0 : S4096x20.Slices ![0, 0] S4096x10
  slices_S4096x20_S4096x10_0_10 : S4096x20.Slices ![0, 10] S4096x10
  dot_S4096x1024x12_S12x20_S4096x1024x20_2_0_01_1_n_n_wf : DotDims.WF S4096x1024x12 S12x20 S4096x1024x20 [2] [0] [0, 1] [1] [] []
  dot_S4096x20_S20x500_S4096x500_1_0_0_1_n_n_wf : DotDims.WF S4096x20 S20x500 S4096x500 [1] [0] [0] [1] [] []
  dot_S4096x500_S500x200_S4096x200_1_0_0_1_n_n_wf : DotDims.WF S4096x500 S500x200 S4096x200 [1] [0] [0] [1] [] []
  dot_S4096x200_S200x20_S4096x20_1_0_0_1_n_n_wf : DotDims.WF S4096x200 S200x20 S4096x20 [1] [0] [0] [1] [] []

variable [Facts₀]

def dot_S4096x1024x12_S12x20_S4096x1024x20_2_0_01_1_n_n : DotDims S4096x1024x12 S12x20 S4096x1024x20 where
  lhsContracting := [2]
  rhsContracting := [0]
  lhsNonContracting := [0, 1]
  rhsNonContracting := [1]
  lhsBatch := []
  rhsBatch := []
  wf := dot_S4096x1024x12_S12x20_S4096x1024x20_2_0_01_1_n_n_wf
def dot_S4096x20_S20x500_S4096x500_1_0_0_1_n_n : DotDims S4096x20 S20x500 S4096x500 where
  lhsContracting := [1]
  rhsContracting := [0]
  lhsNonContracting := [0]
  rhsNonContracting := [1]
  lhsBatch := []
  rhsBatch := []
  wf := dot_S4096x20_S20x500_S4096x500_1_0_0_1_n_n_wf
def dot_S4096x500_S500x200_S4096x200_1_0_0_1_n_n : DotDims S4096x500 S500x200 S4096x200 where
  lhsContracting := [1]
  rhsContracting := [0]
  lhsNonContracting := [0]
  rhsNonContracting := [1]
  lhsBatch := []
  rhsBatch := []
  wf := dot_S4096x500_S500x200_S4096x200_1_0_0_1_n_n_wf
def dot_S4096x200_S200x20_S4096x20_1_0_0_1_n_n : DotDims S4096x200 S200x20 S4096x20 where
  lhsContracting := [1]
  rhsContracting := [0]
  lhsNonContracting := [0]
  rhsNonContracting := [1]
  lhsBatch := []
  rhsBatch := []
  wf := dot_S4096x200_S200x20_S4096x20_1_0_0_1_n_n_wf

class Facts : Prop extends Facts₀ where

variable [Facts]
-- ==== Proof.Spec.lean ====
/-
  The function both programs compute, written once over the extended reals, row by row.

  A row b of the batch has 1024 points. Each point d carries twelve features: the value x(b,d), the ten products
  x(b,d)·F(d,j), and the per-point bias bp(d). A dense layer W1 (12 → 20) with bias b1 is applied to every point,
  the result is weighted by mask(b,d) and summed over the points, and a relu follows: this is the pooled vector of
  row b (20 numbers). Three further dense layers (20 → 500 → 200 → 20), the first two followed by a relu, give
  the row of the result.

  The pooled vector is written in two arrangements. `pooledRrow` is the one just described. `pooledKrow` first folds the
  feature layer into two tables over the points, A(d,k) = Σ_j F(d,j)·W1(1+j,k) + W1(0,k) and
  C(d,k) = bp(d)·W1(11,k) + b1(k), and then takes Σ_d (x·mask)(b,d)·A(d,k) + Σ_d mask(b,d)·C(d,k). The two agree
  when the entries are real numbers (distributivity is used, which fails at the infinities).
-/
import Idealize.ShloMosaic.PureOps.Ideal
import Idealize.ShloMosaic.Lib.ValueIdx

noncomputable section

open scoped BigOperators

namespace Cert.Spec

open Idealize.ShloMosaic Idealize.ShloMosaic.ValueIdx

/-- A matrix of extended reals with a rows and b columns. -/
abbrev Mat (a b : Nat) := FVec Ideal ⟨2, ![a, b]⟩ .f32
/-- A vector of extended reals with a entries. -/
abbrev Vc (a : Nat) := FVec Ideal ⟨1, ![a]⟩ .f32

/-- Every entry of the array is a real number (neither infinity). -/
def IsReal {s : Shape} (v : s.Idx → EReal) : Prop := ∀ i, ∃ r : ℝ, v i = (r : EReal)

/-- max(x, 0). -/
def relu (x : EReal) : EReal := max x 0

/-- One dense layer on one row: entry q is Σ_k h(k)·W(k,q) + b(q). -/
def dense {n p : Nat} (h : Fin n → EReal) (W : Mat n p) (b : Fin p → EReal) (q : Fin p) : EReal :=
  (∑ k : Fin n, h k * W (ix2 k q)) + b q

/-- The three dense layers after pooling, the first two followed by a relu. -/
def head (pooled : Fin 20 → EReal) (W2 : Mat 20 500) (b2 : Fin 500 → EReal) (W3 : Mat 500 200) (b3 : Fin 200 → EReal)
    (W4 : Mat 200 20) (b4 : Fin 20 → EReal) : Fin 20 → EReal :=
  dense (fun k3 => relu (dense (fun k2 => relu (dense pooled W2 b2 k2)) W3 b3 k3)) W4 b4

/-- The table A(d,k) = Σ_j F(d,j)·W1(1+j,k) + W1(0,k). -/
def coefA (F : Mat 1024 10) (W1 : Mat 12 20) (d : Fin 1024) (k : Fin 20) : EReal :=
  (∑ j : Fin 10, F (ix2 d j) * W1 (ix2 (⟨j.val + 1, by omega⟩ : Fin 12) k)) + W1 (ix2 (⟨0, by omega⟩ : Fin 12) k)

/-- The table C(d,k) = bp(d)·W1(11,k) + b1(k). -/
def coefC (bp : Mat 1024 1) (W1 : Mat 12 20) (b1 : Fin 20 → EReal) (d : Fin 1024) (k : Fin 20) : EReal :=
  bp (ix2 d (⟨0, by omega⟩ : Fin 1)) * W1 (ix2 (⟨11, by omega⟩ : Fin 12) k) + b1 k

/-- The pooled vector of one row (values xr, mask mr over the 1024 points) through the folded tables. -/
def pooledKrow (xr mr : Fin 1024 → EReal) (F : Mat 1024 10) (bp : Mat 1024 1) (W1 : Mat 12 20) (b1 : Fin 20 → EReal)
    (k : Fin 20) : EReal :=
  relu ((∑ d : Fin 1024, (xr d * mr d) * coefA F W1 d k) + (∑ d : Fin 1024, mr d * coefC bp W1 b1 d k))

/-- Feature f of point d of a row: the value, then the ten products with F(d,·), then the per-point bias. -/
def featRow (xr : Fin 1024 → EReal) (F : Mat 1024 10) (bp : Mat 1024 1) (d : Fin 1024) (f : Fin 12) : EReal :=
  if h0 : f.val < 1 then xr d
  else if h1 : f.val < 11 then xr d * F (ix2 d (⟨f.val - 1, by omega⟩ : Fin 10))
  else bp (ix2 d (⟨0, by omega⟩ : Fin 1))

/-- The pooled vector of one row, the feature layer applied point by point. -/
def pooledRrow (xr mr : Fin 1024 → EReal) (F : Mat 1024 10) (bp : Mat 1024 1) (W1 : Mat 12 20) (b1 : Fin 20 → EReal)
    (k : Fin 20) : EReal :=
  relu (0 + ∑ d : Fin 1024, ((∑ f : Fin 12, featRow xr F bp d f * W1 (ix2 f k)) + b1 k) * mr d)

/-- Entry (b, n) of the [4096, 20] result through the folded tables. -/
def outK (x m : Mat 4096 1024) (F : Mat 1024 10) (bp : Mat 1024 1) (W1 : Mat 12 20) (b1 : Vc 20)
    (W2 : Mat 20 500) (b2 : Vc 500) (W3 : Mat 500 200) (b3 : Vc 200) (W4 : Mat 200 20) (b4 : Vc 20)
    (b : Fin 4096) (n : Fin 20) : EReal :=
  head (pooledKrow (fun d => x (ix2 b d)) (fun d => m (ix2 b d)) F bp W1 (fun k => b1 (ix1 k)))
    W2 (fun q => b2 (ix1 q)) W3 (fun q => b3 (ix1 q)) W4 (fun q => b4 (ix1 q)) n

/-- Entry (b, n) of the [4096, 20] result, the feature layer applied point by point. -/
def outR (x m : Mat 4096 1024) (F : Mat 1024 10) (bp : Mat 1024 1) (W1 : Mat 12 20) (b1 : Vc 20)
    (W2 : Mat 20 500) (b2 : Vc 500) (W3 : Mat 500 200) (b3 : Vc 200) (W4 : Mat 200 20) (b4 : Vc 20)
    (b : Fin 4096) (n : Fin 20) : EReal :=
  head (pooledRrow (fun d => x (ix2 b d)) (fun d => m (ix2 b d)) F bp W1 (fun k => b1 (ix1 k)))
    W2 (fun q => b2 (ix1 q)) W3 (fun q => b3 (ix1 q)) W4 (fun q => b4 (ix1 q)) n

end Cert.Spec

end
-- ==== Proof.RefValue.lean ====
/-
  The reference program read at one entry of its result, on the extended reals.

  Row b of the batch has 1024 points. For each point d the reference lays twelve features side by side along a third
  axis: the value x(b,d) at coordinate 0, the ten products x(b,d)·F(d,j) at coordinates 1 … 10, and the per-point
  bias bp(d) at coordinate 11. It contracts that axis against W1, adds b1, multiplies by mask(b,d), sums over the
  points starting from the zero constant, and takes the maximum with 0. Three dense layers follow, each a
  contraction plus a bias, the first two followed by a maximum with 0. Read at entry (b, n), every operation is an
  operation on the entries of its operands, so the result entry is the function `Cert.Spec.outR` of the inputs.
-/
import proofs.«107078_j15333033247098_2_alg».proof.Proof.Gen.ReferenceIdeal.Read
import proofs.«107078_j15333033247098_2_alg».proof.Proof.Spec
import Idealize.ShloMosaic.Lib.Pipeline.Value
import Idealize.ShloMosaic.Lib.ValueIdx
import Idealize.ShloMosaic.PureOps.Ideal.Laws

noncomputable section

open scoped BigOperators

namespace Cert.RefValue

open Idealize.ShloMosaic Idealize.ShloMosaic.ValueIdx Cert.ReferenceIdeal Cert.Spec

/-! ## The twelve features of a point -/

/-- The three arrays the reference lays side by side along the feature axis: x with a unit axis appended (extent 1),
    the products x·F (extent 10), and the per-point bias repeated over the rows (extent 1). -/
abbrev pieces (x0 : Mat 4096 1024) (x2 : Mat 1024 10) (x3 : Mat 1024 1) : List ((s : Shape) × (s.Idx → EReal)) :=
  [⟨S4096x1024x1, Read.val_main_v0 (F := Ideal) x0⟩, ⟨S4096x1024x10, Read.val_main_v4 (F := Ideal) x0 x2⟩,
    ⟨S4096x1024x1, Read.val_main_v6 (F := Ideal) x3⟩]

/-- Coordinate 0 of the feature axis holds the value x(b,d): it lies in the first piece, whose span is [0, 1). -/
theorem feat_first (x0 : Mat 4096 1024) (x2 : Mat 1024 10) (x3 : Mat 1024 1) (b : Fin 4096) (d : Fin 1024) (f : Fin 12)
    (h0 : f.val < 1) :
    Read.val_main_v7 (F := Ideal) x0 x2 x3 (ix3 b d f) = x0 (ix2 b d) := by
  unfold Read.val_main_v7
  refine (concatenate_apply_piece (t := S4096x1024x12) 2 (pieces x0 x2 x3)
    Gen.concatenates_S4096x1024x1_S4096x1024x10_S4096x1024x1_S4096x1024x12_d2 (ix3 b d f) 0 (show 0 < 3 by omega)
    S4096x1024x1 (Read.val_main_v0 (F := Ideal) x0) rfl rfl
    0 rfl (ix3 b d (⟨0, by omega⟩ : Fin 1)) ?_ ?_).trans ?_
  · intro a ha
    match a with
    | ⟨0, _⟩ => rfl
    | ⟨1, _⟩ => rfl
    | ⟨2, _⟩ => exact absurd rfl ha
  · show 0 + 0 = f.val
    omega
  · rw [Read.val_main_v0_apply]
    exact congrArg x0 (funext fun a => Fin.ext (by match a with | ⟨0, _⟩ => rfl | ⟨1, _⟩ => rfl))

/-- Coordinates 1 … 10 of the feature axis hold the products x(b,d)·F(d,f−1): they lie in the second piece, whose span
    is [1, 11), and that piece is the product of x repeated along the axis with F repeated over the rows. -/
theorem feat_mid (x0 : Mat 4096 1024) (x2 : Mat 1024 10) (x3 : Mat 1024 1) (b : Fin 4096) (d : Fin 1024) (f : Fin 12)
    (h1 : 1 ≤ f.val) (h2 : f.val < 11) :
    Read.val_main_v7 (F := Ideal) x0 x2 x3 (ix3 b d f)
      = x0 (ix2 b d) * x2 (ix2 d (⟨f.val - 1, by omega⟩ : Fin 10)) := by
  unfold Read.val_main_v7
  refine (concatenate_apply_piece (t := S4096x1024x12) 2 (pieces x0 x2 x3)
    Gen.concatenates_S4096x1024x1_S4096x1024x10_S4096x1024x1_S4096x1024x12_d2 (ix3 b d f) 1 (show 1 < 3 by omega)
    S4096x1024x10 (Read.val_main_v4 (F := Ideal) x0 x2) rfl rfl
    1 rfl (ix3 b d (⟨f.val - 1, by omega⟩ : Fin 10)) ?_ ?_).trans ?_
  · intro a ha
    match a with
    | ⟨0, _⟩ => rfl
    | ⟨1, _⟩ => rfl
    | ⟨2, _⟩ => exact absurd rfl ha
  · show 1 + (f.val - 1) = f.val
    omega
  · rw [Read.val_main_v4_apply, Read.val_main_v2_apply, Read.val_main_v0_apply, Read.val_main_v3_apply,
      Read.val_main_v1_apply]
    have e0 : Read.idx_main_v0 (Read.idx_main_v2 (ix3 b d (⟨f.val - 1, by omega⟩ : Fin 10))) = ix2 b d :=
      funext fun a => Fin.ext (by match a with | ⟨0, _⟩ => rfl | ⟨1, _⟩ => rfl)
    have e1 : Read.idx_main_v1 (Read.idx_main_v3 (ix3 b d (⟨f.val - 1, by omega⟩ : Fin 10)))
        = ix2 d (⟨f.val - 1, by omega⟩ : Fin 10) :=
      funext fun a => Fin.ext (by match a with | ⟨0, _⟩ => rfl | ⟨1, _⟩ => rfl)
    rw [e0, e1]
    rfl

/-- Coordinate 11 of the feature axis holds the per-point bias bp(d): it lies in the third piece, whose span is
    [11, 12), the bias column repeated over the rows of the batch. -/
theorem feat_last (x0 : Mat 4096 1024) (x2 : Mat 1024 10) (x3 : Mat 1024 1) (b : Fin 4096) (d : Fin 1024) (f : Fin 12)
    (h2 : ¬ f.val < 11) :
    Read.val_main_v7 (F := Ideal) x0 x2 x3 (ix3 b d f) = x3 (ix2 d (⟨0, by omega⟩ : Fin 1)) := by
  unfold Read.val_main_v7
  refine (concatenate_apply_piece (t := S4096x1024x12) 2 (pieces x0 x2 x3)
    Gen.concatenates_S4096x1024x1_S4096x1024x10_S4096x1024x1_S4096x1024x12_d2 (ix3 b d f) 2 (show 2 < 3 by omega)
    S4096x1024x1 (Read.val_main_v6 (F := Ideal) x3) rfl rfl
    11 rfl (ix3 b d (⟨0, by omega⟩ : Fin 1)) ?_ ?_).trans ?_
  · intro a ha
    match a with
    | ⟨0, _⟩ => rfl
    | ⟨1, _⟩ => rfl
    | ⟨2, _⟩ => exact absurd rfl ha
  · show 11 + 0 = f.val
    have := f.isLt
    omega
  · rw [Read.val_main_v6_apply, Read.val_main_v5_apply]
    exact congrArg x3 (funext fun a => Fin.ext (by match a with | ⟨0, _⟩ => rfl | ⟨1, _⟩ => rfl))

/-- The feature array at row b, point d, coordinate f is the specification's feature f of point d of that row. -/
theorem feat (x0 : Mat 4096 1024) (x2 : Mat 1024 10) (x3 : Mat 1024 1) (b : Fin 4096) (d : Fin 1024) (f : Fin 12) :
    Read.val_main_v7 (F := Ideal) x0 x2 x3 (ix3 b d f) = featRow (fun d => x0 (ix2 b d)) x2 x3 d f := by
  unfold featRow
  by_cases h0 : f.val < 1
  · rw [dif_pos h0]
    exact feat_first x0 x2 x3 b d f h0
  · rw [dif_neg h0]
    by_cases h1 : f.val < 11
    · rw [dif_pos h1]
      exact feat_mid x0 x2 x3 b d f (by omega) h1
    · rw [dif_neg h1]
      exact feat_last x0 x2 x3 b d f h1

/-! ## The feature layer, the mask, the sum over the points -/

/-- The feature layer at row b, point d, unit k: the twelve features of the point contracted against column k of W1,
    plus b1(k). -/
theorem enc (x0 : Mat 4096 1024) (x2 : Mat 1024 10) (x3 : Mat 1024 1) (x4 : Mat 12 20) (x5 : Vc 20)
    (b : Fin 4096) (d : Fin 1024) (k : Fin 20) :
    Read.val_main_v11 (F := Ideal) x0 x2 x3 x4 x5 (ix3 b d k)
      = (∑ f : Fin 12, featRow (fun d => x0 (ix2 b d)) x2 x3 d f * x4 (ix2 f k)) + x5 (ix1 k) := by
  rw [Read.val_main_v11_apply, Read.val_main_v8_apply, Read.val_main_v10_apply, Read.val_main_v9_apply]
  show (∑ f : Fin 12, _) + x5 _ = _
  refine congrArg₂ (· + ·) (Finset.sum_congr rfl fun f _ => ?_) (congrArg x5 ?_)
  · have el : Read.lidx_main_v8 (ix3 b d k) f = ix3 b d f :=
      funext fun a => Fin.ext (by match a with | ⟨0, _⟩ => rfl | ⟨1, _⟩ => rfl | ⟨2, _⟩ => rfl)
    have er : Read.ridx_main_v8 (ix3 b d k) f = ix2 f k :=
      funext fun a => Fin.ext (by match a with | ⟨0, _⟩ => rfl | ⟨1, _⟩ => rfl)
    rw [el, er, feat]
  · exact funext fun a => Fin.ext (by match a with | ⟨0, _⟩ => rfl)

/-- The pooled vector of row b at unit k: the feature layer weighted by the mask and summed over the 1024 points,
    starting from the zero constant (the word 0 denotes the number 0), then the maximum with 0. -/
theorem pooled (x0 x1 : Mat 4096 1024) (x2 : Mat 1024 10) (x3 : Mat 1024 1) (x4 : Mat 12 20) (x5 : Vc 20)
    (b : Fin 4096) (k : Fin 20) :
    Read.val_main_v16 (F := Ideal) x0 x1 x2 x3 x4 x5 (ix2 b k)
      = pooledRrow (fun d => x0 (ix2 b d)) (fun d => x1 (ix2 b d)) x2 x3 x4 (fun k => x5 (ix1 k)) k := by
  rw [Read.val_main_v16_apply, Read.val_main_v15_apply, Read.val_main_call0_v0_apply, Read.val_main_call0_cst_apply,
    Read.val_main_cst_apply]
  show max (Ideal.ofBits .f32 0x00000000#32 + ∑ d : Fin 1024, _) (Ideal.ofBits .f32 0x00000000#32) = _
  rw [Ideal.ofBits_zero_f32]
  unfold pooledRrow relu
  refine congrArg (fun s => max (0 + s) 0) (Finset.sum_congr rfl fun d _ => ?_)
  have e : Read.idx_main_v15 (ix2 b k) d = ix3 b d k :=
    funext fun a => Fin.ext (by match a with | ⟨0, _⟩ => rfl | ⟨1, _⟩ => rfl | ⟨2, _⟩ => rfl)
  rw [e, Read.val_main_v14_apply, Read.val_main_v13_apply, Read.val_main_v12_apply, enc]
  show _ * x1 _ = _ * x1 _
  exact congrArg (_ * x1 ·) (funext fun a => Fin.ext (by match a with | ⟨0, _⟩ => rfl | ⟨1, _⟩ => rfl))

/-! ## The three dense layers -/

/-- The first dense layer (20 → 500) on row b, followed by the maximum with 0. -/
theorem layer1 (x0 x1 : Mat 4096 1024) (x2 : Mat 1024 10) (x3 : Mat 1024 1) (x4 : Mat 12 20) (x5 : Vc 20)
    (x6 : Mat 20 500) (x7 : Vc 500) (b : Fin 4096) (q : Fin 500) :
    Read.val_main_v21 (F := Ideal) x0 x1 x2 x3 x4 x5 x6 x7 (ix2 b q)
      = relu (dense (pooledRrow (fun d => x0 (ix2 b d)) (fun d => x1 (ix2 b d)) x2 x3 x4 (fun k => x5 (ix1 k)))
          x6 (fun q => x7 (ix1 q)) q) := by
  rw [Read.val_main_v21_apply, Read.val_main_v20_apply, Read.val_main_v17_apply, Read.val_main_v19_apply,
    Read.val_main_v18_apply, Read.val_main_call1_v0_apply, Read.val_main_call1_cst_apply]
  show max ((∑ k : Fin 20, _) + x7 _) (Ideal.ofBits .f32 0x00000000#32) = _
  rw [Ideal.ofBits_zero_f32]
  rw [relu, dense]
  refine congrArg (fun s => max s 0) (congrArg₂ (· + ·) (Finset.sum_congr rfl fun k _ => ?_) (congrArg x7 ?_))
  · have el : Read.lidx_main_v17 (ix2 b q) k = ix2 b k :=
      funext fun a => Fin.ext (by match a with | ⟨0, _⟩ => rfl | ⟨1, _⟩ => rfl)
    have er : Read.ridx_main_v17 (ix2 b q) k = ix2 k q :=
      funext fun a => Fin.ext (by match a with | ⟨0, _⟩ => rfl | ⟨1, _⟩ => rfl)
    rw [el, er, pooled]
  · exact funext fun a => Fin.ext (by match a with | ⟨0, _⟩ => rfl)

/-- The second dense layer (500 → 200) on row b, followed by the maximum with 0. -/
theorem layer2 (x0 x1 : Mat 4096 1024) (x2 : Mat 1024 10) (x3 : Mat 1024 1) (x4 : Mat 12 20) (x5 : Vc 20)
    (x6 : Mat 20 500) (x7 : Vc 500) (x8 : Mat 500 200) (x9 : Vc 200) (b : Fin 4096) (q : Fin 200) :
    Read.val_main_v26 (F := Ideal) x0 x1 x2 x3 x4 x5 x6 x7 x8 x9 (ix2 b q)
      = relu (dense (fun k2 => relu (dense
            (pooledRrow (fun d => x0 (ix2 b d)) (fun d => x1 (ix2 b d)) x2 x3 x4 (fun k => x5 (ix1 k)))
            x6 (fun q => x7 (ix1 q)) k2))
          x8 (fun q => x9 (ix1 q)) q) := by
  rw [Read.val_main_v26_apply, Read.val_main_v25_apply, Read.val_main_v22_apply, Read.val_main_v24_apply,
    Read.val_main_v23_apply, Read.val_main_call2_v0_apply, Read.val_main_call2_cst_apply]
  show max ((∑ k : Fin 500, _) + x9 _) (Ideal.ofBits .f32 0x00000000#32) = _
  rw [Ideal.ofBits_zero_f32]
  rw [relu, dense]
  refine congrArg (fun s => max s 0) (congrArg₂ (· + ·) (Finset.sum_congr rfl fun k _ => ?_) (congrArg x9 ?_))
  · have el : Read.lidx_main_v22 (ix2 b q) k = ix2 b k :=
      funext fun a => Fin.ext (by match a with | ⟨0, _⟩ => rfl | ⟨1, _⟩ => rfl)
    have er : Read.ridx_main_v22 (ix2 b q) k = ix2 k q :=
      funext fun a => Fin.ext (by match a with | ⟨0, _⟩ => rfl | ⟨1, _⟩ => rfl)
    rw [el, er, layer1]
  · exact funext fun a => Fin.ext (by match a with | ⟨0, _⟩ => rfl)

/-! ## The result -/

/-- Entry (b, n) of the reference's [4096, 20] result — the array its two results are sliced from — is the
    specification's `outR`: the third dense layer (200 → 20) on row b, with no maximum after it. -/
theorem ref_out (x0 x1 : Mat 4096 1024) (x2 : Mat 1024 10) (x3 : Mat 1024 1) (x4 : Mat 12 20) (x5 : Vc 20)
    (x6 : Mat 20 500) (x7 : Vc 500) (x8 : Mat 500 200) (x9 : Vc 200) (x10 : Mat 200 20) (x11 : Vc 20)
    (b : Fin 4096) (n : Fin 20) :
    Read.val_main_v30 (F := Ideal) x0 x1 x2 x3 x4 x5 x6 x7 x8 x9 x10 x11 (ix2 b n)
      = outR x0 x1 x2 x3 x4 x5 x6 x7 x8 x9 x10 x11 b n := by
  rw [Read.val_main_v30_apply, Read.val_main_v27_apply, Read.val_main_v29_apply, Read.val_main_v28_apply]
  show (∑ k : Fin 200, _) + x11 _ = _
  unfold outR head
  rw [dense]
  refine congrArg₂ (· + ·) (Finset.sum_congr rfl fun k _ => ?_) (congrArg x11 ?_)
  · have el : Read.lidx_main_v27 (ix2 b n) k = ix2 b k :=
      funext fun a => Fin.ext (by match a with | ⟨0, _⟩ => rfl | ⟨1, _⟩ => rfl)
    have er : Read.ridx_main_v27 (ix2 b n) k = ix2 k n :=
      funext fun a => Fin.ext (by match a with | ⟨0, _⟩ => rfl | ⟨1, _⟩ => rfl)
    rw [el, er, layer2]
  · exact funext fun a => Fin.ext (by match a with | ⟨0, _⟩ => rfl)

end Cert.RefValue

end
-- ==== Proof.Algebra.lean ====
/-
  The two arrangements of the pooled vector agree when every entry is a real number.

  For one row, with values x(d), mask m(d) over the 1024 points, the folded arrangement is
    relu( Σ_d (x(d)·m(d))·A(d,k) + Σ_d m(d)·C(d,k) ),   A(d,k) = Σ_j F(d,j)·W1(1+j,k) + W1(0,k),  C(d,k) = bp(d)·W1(11,k) + b1(k),
  and the point-by-point arrangement is
    relu( 0 + Σ_d ( Σ_{f<12} feat(d,f)·W1(f,k) + b1(k) )·m(d) ).
  The two sums over the points are merged into one (Σ_d u(d) + Σ_d v(d) = Σ_d (u(d) + v(d)) holds in any commutative
  monoid, so in the extended reals too), and the claim becomes an identity for one point d:
    (x·m)·(Σ_j F_j·w_{1+j} + w_0) + m·(p·w_11 + c) = (x·w_0 + Σ_j (x·F_j)·w_{1+j} + p·w_11 + c)·m.
  This is distributivity, which holds for real numbers and fails at the infinities; so every entry is written as the
  image of a real number, the image map ℝ → EReal is moved outward through the products, sums and finite sums, and
  the identity is proved in ℝ.
-/
import proofs.«107078_j15333033247098_2_alg».proof.Proof.Spec

noncomputable section

open scoped BigOperators

namespace Cert.Spec

open Idealize.ShloMosaic Idealize.ShloMosaic.ValueIdx

/-- The image in the extended reals of a finite sum of real numbers is the sum of the images: by induction on the index
    set, the empty sum is 0 on both sides and adding one more term uses that the image of a + b is the sum of the
    images. -/
theorem coe_finsum {ι : Type} (s : Finset ι) (g : ι → ℝ) :
    ((∑ i ∈ s, g i : ℝ) : EReal) = ∑ i ∈ s, (g i : EReal) := by
  classical
  induction s using Finset.induction_on with
  | empty => simp
  | insert a s ha ih => rw [Finset.sum_insert ha, Finset.sum_insert ha, EReal.coe_add, ih]

/-- Feature 0 of a point is its value. -/
theorem featRow_zero (xr : Fin 1024 → EReal) (F : Mat 1024 10) (bp : Mat 1024 1) (d : Fin 1024) :
    featRow xr F bp d (⟨0, by omega⟩ : Fin 12) = xr d := by
  unfold featRow
  rw [dif_pos (by decide)]

/-- Feature 1 + j of a point (j < 10) is its value times F(d,j). -/
theorem featRow_mid (xr : Fin 1024 → EReal) (F : Mat 1024 10) (bp : Mat 1024 1) (d : Fin 1024) (j : Fin 10) :
    featRow xr F bp d (⟨j.val + 1, by omega⟩ : Fin 12) = xr d * F (ix2 d j) := by
  unfold featRow
  rw [dif_neg (by simp), dif_pos (show j.val + 1 < 11 by omega)]
  rfl

/-- Feature 11 of a point is its bias bp(d). -/
theorem featRow_last (xr : Fin 1024 → EReal) (F : Mat 1024 10) (bp : Mat 1024 1) (d : Fin 1024) :
    featRow xr F bp d (⟨11, by omega⟩ : Fin 12) = bp (ix2 d (⟨0, by omega⟩ : Fin 1)) := by
  unfold featRow
  rw [dif_neg (by decide), dif_neg (by decide)]

/-- The sum over the twelve features of one point, split by the kind of feature: f = 0 (the value), f = 1 + j for
    j < 10 (the products with F), f = 11 (the bias). Only the bracketing of the sum changes, so no entry has to be
    real here. -/
theorem feat_sum (xr : Fin 1024 → EReal) (F : Mat 1024 10) (bp : Mat 1024 1) (W1 : Mat 12 20) (d : Fin 1024)
    (k : Fin 20) :
    (∑ f : Fin 12, featRow xr F bp d f * W1 (ix2 f k))
      = xr d * W1 (ix2 (⟨0, by omega⟩ : Fin 12) k)
        + ((∑ j : Fin 10, (xr d * F (ix2 d j)) * W1 (ix2 (⟨j.val + 1, by omega⟩ : Fin 12) k))
          + bp (ix2 d (⟨0, by omega⟩ : Fin 1)) * W1 (ix2 (⟨11, by omega⟩ : Fin 12) k)) := by
  rw [Fin.sum_univ_succ, Fin.sum_univ_castSucc]
  -- the three kinds of index, as explicit elements of Fin 12
  have e0 : (0 : Fin 12) = ⟨0, by omega⟩ := rfl
  have em : ∀ j : Fin 10, (Fin.succ (Fin.castSucc j) : Fin 12) = ⟨j.val + 1, by omega⟩ := fun j => Fin.ext rfl
  have el : (Fin.succ (Fin.last 10) : Fin 12) = ⟨11, by omega⟩ := rfl
  have hmid : ∀ j : Fin 10,
      featRow xr F bp d (Fin.succ (Fin.castSucc j)) * W1 (ix2 (Fin.succ (Fin.castSucc j)) k)
        = (xr d * F (ix2 d j)) * W1 (ix2 (⟨j.val + 1, by omega⟩ : Fin 12) k) := fun j => by
    rw [em j, featRow_mid]
  rw [e0, el, featRow_zero, featRow_last, Finset.sum_congr rfl (fun j _ => hmid j)]

/-- The identity for one point, in ℝ: the factor x is taken out of the sum over j, and the rest is distributivity and
    commutativity. -/
theorem point_real (x m p c w0 w11 : ℝ) (Fr wr : Fin 10 → ℝ) :
    (x * m) * ((∑ j, Fr j * wr j) + w0) + m * (p * w11 + c)
      = ((x * w0 + ((∑ j, (x * Fr j) * wr j) + p * w11)) + c) * m := by
  have h : (∑ j, (x * Fr j) * wr j) = x * ∑ j, Fr j * wr j := by
    rw [Finset.mul_sum]
    exact Finset.sum_congr rfl (fun j _ => by ring)
  rw [h]
  ring

/-- The identity for one point, in the extended reals with every entry the image of a real number: both sides are the
    image of the two sides of the identity in ℝ. -/
theorem point_ereal (x m p c w0 w11 : ℝ) (Fr wr : Fin 10 → ℝ) :
    ((x : EReal) * m) * ((∑ j, (Fr j : EReal) * wr j) + w0) + m * ((p : EReal) * w11 + c)
      = (((x : EReal) * w0 + ((∑ j, ((x : EReal) * Fr j) * wr j) + (p : EReal) * w11)) + c) * m := by
  simp only [← EReal.coe_mul, ← coe_finsum, ← EReal.coe_add]
  exact congrArg _ (point_real x m p c w0 w11 Fr wr)

/-- The two arrangements of the pooled vector of one row agree when all entries are real. -/
theorem pooledRow_eq (xr mr : Fin 1024 → EReal) (F : Mat 1024 10) (bp : Mat 1024 1) (W1 : Mat 12 20)
    (b1 : Fin 20 → EReal)
    (hx : ∀ d, ∃ r : ℝ, xr d = (r : EReal)) (hm : ∀ d, ∃ r : ℝ, mr d = (r : EReal)) (hF : IsReal F)
    (hbp : IsReal bp) (hW1 : IsReal W1) (hb1 : ∀ k, ∃ r : ℝ, b1 k = (r : EReal)) (k : Fin 20) :
    pooledKrow xr mr F bp W1 b1 k = pooledRrow xr mr F bp W1 b1 k := by
  classical
  -- real numbers whose images are the entries
  choose xr' hxr using hx
  choose mr' hmr using hm
  choose b1' hb1' using hb1
  have hF0 : ∀ i, ∃ r : ℝ, F i = (r : EReal) := hF
  have hbp0 : ∀ i, ∃ r : ℝ, bp i = (r : EReal) := hbp
  have hW0 : ∀ i, ∃ r : ℝ, W1 i = (r : EReal) := hW1
  choose F' hF' using hF0
  choose bp' hbp' using hbp0
  choose W1' hW1' using hW0
  unfold pooledKrow pooledRrow
  -- one sum over the points on each side
  rw [zero_add, ← Finset.sum_add_distrib]
  congr 1
  refine Finset.sum_congr rfl (fun d _ => ?_)
  -- the identity for the point d
  rw [feat_sum]
  unfold coefA coefC
  simp only [hxr, hmr, hb1', hF', hbp', hW1']
  exact point_ereal (xr' d) (mr' d) (bp' (ix2 d (⟨0, by omega⟩ : Fin 1))) (b1' k)
    (W1' (ix2 (⟨0, by omega⟩ : Fin 12) k)) (W1' (ix2 (⟨11, by omega⟩ : Fin 12) k))
    (fun j => F' (ix2 d j)) (fun j => W1' (ix2 (⟨j.val + 1, by omega⟩ : Fin 12) k))

/-- Entry (b, n) of the result is the same through either arrangement when x, the mask, F, bp, W1 and b1 are real: the
    pooled vectors of row b agree entry by entry, and the three further layers are applied to equal vectors. -/
theorem out_eq (x m : Mat 4096 1024) (F : Mat 1024 10) (bp : Mat 1024 1) (W1 : Mat 12 20) (b1 : Vc 20)
    (W2 : Mat 20 500) (b2 : Vc 500) (W3 : Mat 500 200) (b3 : Vc 200) (W4 : Mat 200 20) (b4 : Vc 20)
    (hx : IsReal x) (hm : IsReal m) (hF : IsReal F) (hbp : IsReal bp) (hW1 : IsReal W1) (hb1 : IsReal b1)
    (b : Fin 4096) (n : Fin 20) :
    outK x m F bp W1 b1 W2 b2 W3 b3 W4 b4 b n = outR x m F bp W1 b1 W2 b2 W3 b3 W4 b4 b n := by
  have h : pooledKrow (fun d => x (ix2 b d)) (fun d => m (ix2 b d)) F bp W1 (fun k => b1 (ix1 k))
      = pooledRrow (fun d => x (ix2 b d)) (fun d => m (ix2 b d)) F bp W1 (fun k => b1 (ix1 k)) := by
    funext k
    exact pooledRow_eq _ _ F bp W1 _ (fun d => hx (ix2 b d)) (fun d => hm (ix2 b d)) hF hbp hW1
      (fun k => hb1 (ix1 k)) k
  unfold outK outR
  rw [h]

end Cert.Spec

end
-- ==== Proof.Finite.lean ====
/-
  From the precondition to "the entries are real numbers".

  The precondition of the certificate is the conjunction, over the twelve float arguments, of the test
  "every entry x of the array satisfies |x| < +∞", and it states that this conjunction is the one-bit word 1.
  Over the extended reals |x| is max(x, −x) and the bound is ⊤, so the test fails exactly at x = ⊤ and x = ⊥:
  an entry that passes it is a real number. The conjunction of one-bit words is 1 only if every conjunct is,
  and a conjunction over all entries of an array ("all") that is 1 had a 1 at every entry. Read in this order the
  precondition gives, for each argument array, that all of its entries are real; the first six arrays (the values,
  the mask, the two per-point tables and the first layer's weights and bias) are the ones stated here.
-/
import proofs.«107078_j15333033247098_2_alg».proof.Defs
import proofs.«107078_j15333033247098_2_alg».proof.Proof.Gen.Pre_finite_inputs
import proofs.«107078_j15333033247098_2_alg».proof.Proof.Spec
import Idealize.ShloMosaic.Lib.ReduceAll
import Idealize.ShloMosaic.Lib.ValueIdx

noncomputable section

namespace Cert.Finite

open Idealize.ShloMosaic Idealize.ShloMosaic.ValueIdx Idealize.SL.Sem
open Cert.Pre_finite_inputs

/-- The result of a reduction over all axes has rank 0, hence exactly one index. -/
instance : Subsingleton S_.Idx := ⟨fun a b => funext fun d => d.elim0⟩

/-- The f32 pattern 0x7F800000 (sign 0, exponent all ones, fraction 0) denotes +∞. -/
theorem inf_pattern : Ideal.ofBits .f32 0x7F800000#32 = (⊤ : EReal) := by
  simp [Ideal.ofBits, Ideal.ieee]

/-- An extended real x with max(x, −x) < ⊤ is a real number: at x = ⊤ the maximum is ⊤, and at x = ⊥ it is
    −⊥ = ⊤ again, so neither infinity satisfies the strict bound. -/
theorem real_of_abs_lt_top (x : EReal) (h : max x (-x) < ⊤) : ∃ r : ℝ, x = (r : EReal) := by
  induction x using EReal.rec with
  | bot => simp at h
  | coe r => exact ⟨r, rfl⟩
  | top => simp at h

/-- One entry: if the comparison word "|x| < +∞" is 1, then x is a real number. -/
theorem real_of_test (x : Ideal .f32)
    (h : FloatOps.cmpf .olt (FloatOps.hostAbsf x) (Ideal.ofBits .f32 0x7F800000#32) = 1#1) :
    ∃ r : ℝ, (x : EReal) = (r : EReal) := by
  -- the comparison is the decision of max(x, −x) < +∞ written as a one-bit word
  change BitVec.ofBool (decide (max (x : EReal) (-(x : EReal)) < Ideal.ofBits .f32 0x7F800000#32)) = 1#1 at h
  rw [inf_pattern] at h
  by_cases hlt : max (x : EReal) (-(x : EReal)) < ⊤
  · exact real_of_abs_lt_top x hlt
  · simp [hlt] at h

/-- One array: if "all entries satisfy |x| < +∞" (the test at every entry, then the conjunction over all axes
    started from 1) is 1, then every entry of the array is a real number. -/
theorem isReal_of_all {s : Shape} {axes : List (Fin s.rank)}
    (hb : S_.BroadcastsInDim s (![] : Fin 0 → Fin s.rank)) (hr : s.ReducesTo axes S_) (hu : 0 < S_.numel)
    (x : FVec Ideal s .f32) (init : IVec S_ 1)
    (e : Host.reduce IntOp.andi
          (cmpf .olt (Host.absf x) (broadcastInDim s ![] hb (constant (F := Ideal) S_ .f32 0x7F800000#32))) init hr hu ix0
        = 1#1) :
    Cert.Spec.IsReal (s := s) x := by
  intro i
  -- the conjunction over all entries is 1, so the test at entry i is 1
  have hi := Host.reduce_andi_all _ init hr hu ix0 e i
  -- at entry i the test compares |x i| with the broadcast constant, which is the pattern of +∞ at every index
  exact real_of_test (x i) hi

/-- The conjunction of two rank-0 one-bit arrays, read at the one index. -/
theorem andi_at (a b : IVec S_ 1) (j : S_.Idx) : Idealize.ShloMosaic.andi a b j = IntOp.andi (a j) (b j) := rfl

/-- The twelve-array form: if the printed precondition evaluates to the all-ones word on x0 … x11, then the first six
    arrays hold real numbers only. The printed function is a left-nested conjunction
    ((… ((t0 ∧ t1) ∧ t2) ∧ …) ∧ t11) of the twelve per-array tests; it is 1 only if each ti is 1. -/
theorem real_of_fn [Cert.Pre_finite_inputs.Facts]
    (x0 x1 : FVec Ideal S4096x1024 .f32) (x2 : FVec Ideal S1024x10 .f32) (x3 : FVec Ideal S1024x1 .f32)
    (x4 : FVec Ideal S12x20 .f32) (x5 : FVec Ideal S20 .f32) (x6 : FVec Ideal S20x500 .f32) (x7 : FVec Ideal S500 .f32)
    (x8 : FVec Ideal S500x200 .f32) (x9 : FVec Ideal S200 .f32) (x10 : FVec Ideal S200x20 .f32) (x11 : FVec Ideal S20 .f32)
    (h : Cert.Pre_finite_inputs.fn (F := Ideal) x0 x1 x2 x3 x4 x5 x6 x7 x8 x9 x10 x11 = (fun _ => 1#1)) :
    Cert.Spec.IsReal (s := S4096x1024) x0 ∧ Cert.Spec.IsReal (s := S4096x1024) x1
      ∧ Cert.Spec.IsReal (s := S1024x10) x2 ∧ Cert.Spec.IsReal (s := S1024x1) x3
      ∧ Cert.Spec.IsReal (s := S12x20) x4 ∧ Cert.Spec.IsReal (s := S20) x5 := by
  -- the result has one index; read the hypothesis there
  have e := congrFun h ix0
  dsimp only [Cert.Pre_finite_inputs.fn, Cert.Pre_finite_inputs.fn_part1, Cert.Pre_finite_inputs.fn_part2,
    Cert.Pre_finite_inputs.fn_part3] at e
  -- split the nested conjunction into its twelve conjuncts
  simp only [andi_at, IntOp.andi_eq_one] at e
  obtain ⟨⟨⟨⟨⟨⟨⟨⟨⟨⟨⟨e0, e1⟩, e2⟩, e3⟩, e4⟩, e5⟩, -⟩, -⟩, -⟩, -⟩, -⟩, -⟩ := e
  exact ⟨isReal_of_all _ _ _ x0 _ e0, isReal_of_all _ _ _ x1 _ e1, isReal_of_all _ _ _ x2 _ e2,
    isReal_of_all _ _ _ x3 _ e3, isReal_of_all _ _ _ x4 _ e4, isReal_of_all _ _ _ x5 _ e5⟩

/-- The precondition of the idealized kernel, read on a device: the first six argument arrays in the launch memory
    (values, mask, the two per-point tables, the first layer's weights and bias) hold real numbers only. -/
theorem real_of_pre [Cert.Pre_finite_inputs.Facts]
    (m : (ℓ : Loc Cert.KernelIdeal.nD Cert.KernelIdeal.τ Cert.KernelIdeal.sig) → Buf (Elt Ideal) ℓ)
    (h : Cert.Pre_KernelIdeal m) (c : Dev Cert.KernelIdeal.nD) :
    Cert.Spec.IsReal (s := ⟨2, ![4096, 1024]⟩) (m ((c.tc : Thread Cert.KernelIdeal.nD Cert.KernelIdeal.τ).loc Cert.KernelIdeal.main_arg0))
      ∧ Cert.Spec.IsReal (s := ⟨2, ![4096, 1024]⟩) (m ((c.tc : Thread Cert.KernelIdeal.nD Cert.KernelIdeal.τ).loc Cert.KernelIdeal.main_arg1))
      ∧ Cert.Spec.IsReal (s := ⟨2, ![1024, 10]⟩) (m ((c.tc : Thread Cert.KernelIdeal.nD Cert.KernelIdeal.τ).loc Cert.KernelIdeal.main_arg2))
      ∧ Cert.Spec.IsReal (s := ⟨2, ![1024, 1]⟩) (m ((c.tc : Thread Cert.KernelIdeal.nD Cert.KernelIdeal.τ).loc Cert.KernelIdeal.main_arg3))
      ∧ Cert.Spec.IsReal (s := ⟨2, ![12, 20]⟩) (m ((c.tc : Thread Cert.KernelIdeal.nD Cert.KernelIdeal.τ).loc Cert.KernelIdeal.main_arg4))
      ∧ Cert.Spec.IsReal (s := ⟨1, ![20]⟩) (m ((c.tc : Thread Cert.KernelIdeal.nD Cert.KernelIdeal.τ).loc Cert.KernelIdeal.main_arg5)) :=
  real_of_fn _ _ _ _ _ _ _ _ _ _ _ _ (h c)

end Cert.Finite

end
-- ==== Proof.LibPlainDot.lean ====
/-
  A matrix product with the plain dimension numbers, read at one entry of its result on the extended reals.

  The left operand is [M, K], contracted on its second axis against the first axis of the right operand [K, N];
  there is no batch axis. Entry (p, q) of the product is the sum over k of lhs (p, k) · rhs (k, q). This holds for
  the vector unit's product into a zero accumulator (the zero word denotes 0, and 0 + s = s) and for the host's
  `dot_general`, for all extents M, K, N. A record of dimension numbers is determined by its six lists of axes
  (its remaining field is a proof), so the statements are about `DotDims.plain M K N` and apply to every record
  that lists the same axes.
-/
import Idealize.ShloMosaic.PureOps.Ideal.Laws
import Idealize.ShloMosaic.Lib.ValueIdx

noncomputable section

open scoped BigOperators

namespace Cert.LibPlainDot

open Idealize.ShloMosaic Idealize.ShloMosaic.ValueIdx

variable {M K N : Nat}

/-- The contraction index of the plain product is its one coordinate, k < K. -/
abbrev kEquiv (M K N : Nat) : (DotDims.plain M K N).contr.Idx ≃ Fin K :=
  contrEquiv1 (DotDims.plain M K N) K rfl rfl

/-- The left operand's row axis is the result's first axis: it reads the result entry's row. -/
theorem lhs_row (j : (⟨2, ![M, N]⟩ : Shape).Idx) (κ : (DotDims.plain M K N).contr.Idx) :
    ((DotDims.plain M K N).lhsIdx j κ 0).val = (j 0).val := by
  unfold DotDims.lhsIdx
  rw [dif_neg (show ¬(0 : Fin 2) ∈ (DotDims.plain M K N).lhsBatch from List.not_mem_nil),
    dif_pos (show (0 : Fin 2) ∈ (DotDims.plain M K N).lhsNonContracting from List.mem_singleton.mpr rfl)]
  rfl

/-- The left operand's column axis is the contracted one: it reads the contraction coordinate. -/
theorem lhs_col (j : (⟨2, ![M, N]⟩ : Shape).Idx) (k : Fin K) :
    ((DotDims.plain M K N).lhsIdx j ((kEquiv M K N).symm k) 1).val = k.val :=
  ((DotDims.plain M K N).lhsIdx_val_of_single rfl j _).trans (contrEquiv1_symm_val (DotDims.plain M K N) K rfl rfl k)

/-- The right operand's row axis is the contracted one. -/
theorem rhs_row (j : (⟨2, ![M, N]⟩ : Shape).Idx) (k : Fin K) :
    ((DotDims.plain M K N).rhsIdx j ((kEquiv M K N).symm k) 0).val = k.val :=
  ((DotDims.plain M K N).rhsIdx_val_of_single rfl j _).trans (contrEquiv1_symm_val (DotDims.plain M K N) K rfl rfl k)

/-- The right operand's column axis is the result's second axis: it reads the result entry's column. -/
theorem rhs_col (j : (⟨2, ![M, N]⟩ : Shape).Idx) (κ : (DotDims.plain M K N).contr.Idx) :
    ((DotDims.plain M K N).rhsIdx j κ 1).val = (j 1).val := by
  unfold DotDims.rhsIdx
  rw [dif_neg (show ¬(1 : Fin 2) ∈ (DotDims.plain M K N).rhsBatch from List.not_mem_nil),
    dif_pos (show (1 : Fin 2) ∈ (DotDims.plain M K N).rhsNonContracting from List.mem_singleton.mpr rfl)]
  rfl

/-- At result entry (p, q) and contraction coordinate k the left operand is read at (p, k) -/
theorem lhsIdx_plain (p : Fin M) (q : Fin N) (k : Fin K) :
    (DotDims.plain M K N).lhsIdx (ix2 p q) ((kEquiv M K N).symm k) = ix2 p k :=
  funext fun a => Fin.ext (by
    match a with
    | ⟨0, _⟩ => exact lhs_row (ix2 p q) _
    | ⟨1, _⟩ => exact lhs_col (ix2 p q) k)

/-- and the right operand at (k, q). -/
theorem rhsIdx_plain (p : Fin M) (q : Fin N) (k : Fin K) :
    (DotDims.plain M K N).rhsIdx (ix2 p q) ((kEquiv M K N).symm k) = ix2 k q :=
  funext fun a => Fin.ext (by
    match a with
    | ⟨0, _⟩ => exact rhs_row (ix2 p q) k
    | ⟨1, _⟩ => exact rhs_col (ix2 p q) _)

/-- The sum over the contraction index of the two operands' entries is the sum over k < K of lhs (p, k) · rhs (k, q). -/
theorem sum_contr {φ₁ φ₂ : FTy} (lhs : FVec Ideal ⟨2, ![M, K]⟩ φ₁) (rhs : FVec Ideal ⟨2, ![K, N]⟩ φ₂)
    (p : Fin M) (q : Fin N) :
    (∑ κ : (DotDims.plain M K N).contr.Idx,
        lhs ((DotDims.plain M K N).lhsIdx (ix2 p q) κ) * rhs ((DotDims.plain M K N).rhsIdx (ix2 p q) κ) : EReal)
      = ∑ k : Fin K, lhs (ix2 p k) * rhs (ix2 k q) := by
  rw [← Equiv.sum_comp (kEquiv M K N).symm]
  exact Finset.sum_congr rfl fun k _ =>
    congrArg₂ (fun a b => (lhs a * rhs b : EReal)) (lhsIdx_plain p q k) (rhsIdx_plain p q k)

/-- The vector unit's product into the zero accumulator, at entry (p, q). -/
theorem matmul_zero_apply {φ₁ φ₂ : FTy} (prec : Option ContractPrecision)
    (lhs : FVec Ideal ⟨2, ![M, K]⟩ φ₁) (rhs : FVec Ideal ⟨2, ![K, N]⟩ φ₂) (p : Fin M) (q : Fin N) :
    FloatOps.matmul (DotDims.plain M K N) prec lhs rhs (constant (F := Ideal) ⟨2, ![M, N]⟩ .f32 0x00000000#32) (ix2 p q)
      = ∑ k : Fin K, lhs (ix2 p k) * rhs (ix2 k q) := by
  rw [Ideal.matmul_constant_zero_apply]
  exact sum_contr lhs rhs p q

/-- The host's `dot_general`, at entry (p, q). -/
theorem dotGeneral_apply {φ₁ φ₂ : FTy} (prec : Option ContractPrecision) (sched : HostSchedule)
    (lhs : FVec Ideal ⟨2, ![M, K]⟩ φ₁) (rhs : FVec Ideal ⟨2, ![K, N]⟩ φ₂) (p : Fin M) (q : Fin N) :
    FloatOps.dotGeneral (DotDims.plain M K N) prec sched lhs rhs (ix2 p q)
      = ∑ k : Fin K, lhs (ix2 p k) * rhs (ix2 k q) := by
  rw [Ideal.dotGeneral_apply]
  exact sum_contr lhs rhs p q

end Cert.LibPlainDot

end
-- ==== Proof.KerBlock.lean ====
/-
  One block of the kernel's result, entry by entry.

  At a grid point the kernel body holds 512 rows of x and of the mask and the whole of the small tables, and stores
  one 512 × 20 block. This module reads that block at row r and column n as the specification's `head` of the
  row's pooled vector: the body first builds the two coefficient tables A = F · W1[1..10] + W1[0] and
  C = bp · W1[11] + b1 (a product, three row slices of W1, a column and two rows broadcast), then
  relu((x·mask) · A + mask · C), then three dense layers with a relu after the first two. Each matrix product into
  the zero accumulator is a plain sum over the contracted index; a row [1, N] broadcast down M rows reads its
  entry (0, q); a column [M, 1] broadcast across N columns reads its entry (r, 0); a slice of rows of W1 reads
  the row shifted by the slice's offset; the zero word is the number 0.
-/
import proofs.«107078_j15333033247098_2_alg».proof.Proof.Gen.KernelIdeal.Frame
import proofs.«107078_j15333033247098_2_alg».proof.Proof.Spec
import proofs.«107078_j15333033247098_2_alg».proof.Proof.LibPlainDot
import Idealize.ShloMosaic.Lib.Pipeline.Value
import Idealize.ShloMosaic.Lib.ValueIdx
import Idealize.ShloMosaic.PureOps.Ideal.Laws

noncomputable section

open scoped BigOperators

namespace Cert.KerBlock

open Cert.KernelIdeal Cert.KernelIdeal.Gen Idealize.ShloMosaic Idealize.ShloMosaic.ValueIdx Idealize.SL.Sem

/-- A row [1, N] broadcast to [M, N], at (r, q), is the row's entry (0, q). -/
theorem bias_row_apply {M N : Nat} (bias : (⟨2, ![1, N]⟩ : Shape).Idx → EReal)
    (hb : (⟨2, ![1, N]⟩ : Shape).Broadcasts ⟨2, ![M, N]⟩) (r : Fin M) (q : Fin N) :
    broadcastTo ⟨2, ![M, N]⟩ bias hb (ix2 r q) = bias (ix2 (0 : Fin 1) q) := by
  refine broadcastTo_apply bias hb (ix2 r q) (ix2 (0 : Fin 1) q) (fun a => ?_)
  match a with
  | ⟨0, _⟩ => simp
  | ⟨1, _⟩ =>
    by_cases h1 : N = 1
    · subst h1; simp
    · simp [h1]

/-- A column [M, 1] broadcast to [M, N] (N ≠ 1), at (r, q), is the column's entry (r, 0). -/
theorem col_apply {M N : Nat} (hN : N ≠ 1) (col : (⟨2, ![M, 1]⟩ : Shape).Idx → EReal)
    (hb : (⟨2, ![M, 1]⟩ : Shape).Broadcasts ⟨2, ![M, N]⟩) (r : Fin M) (q : Fin N) :
    broadcastTo ⟨2, ![M, N]⟩ col hb (ix2 r q) = col (ix2 r (0 : Fin 1)) := by
  refine broadcastTo_apply col hb (ix2 r q) (ix2 r (0 : Fin 1)) (fun a => ?_)
  match a with
  | ⟨0, _⟩ =>
    by_cases h1 : M = 1
    · subst h1; simp
    · simp [h1]
  | ⟨1, _⟩ => simp

/-- Row o of W1 taken as a [1, 20] slice, at (0, k), is W1(o, k). -/
theorem slice_row_apply (v3 : FVec Ideal S12x20 .f32) (o : Nat) (ho : o < 12) (h : S12x20.Slices ![o, 0] S1x20) (k : Fin 20) :
    extractStridedSlice S1x20 ![o, 0] v3 h (ix2 (0 : Fin 1) k) = v3 (ix2 (⟨o, ho⟩ : Fin 12) k) := by
  refine extractStridedSlice_apply ![o, 0] v3 h (ix2 (0 : Fin 1) k) (ix2 (⟨o, ho⟩ : Fin 12) k) (fun a => ?_)
  match a with
  | ⟨0, _⟩ => simp
  | ⟨1, _⟩ => simp

/-- Rows 1 to 10 of W1 taken as a [10, 20] slice, at (j, k), is W1(j + 1, k). -/
theorem slice_mid_apply (v3 : FVec Ideal S12x20 .f32) (h : S12x20.Slices ![1, 0] S10x20) (j : Fin 10) (k : Fin 20) :
    extractStridedSlice S10x20 ![1, 0] v3 h (ix2 j k) = v3 (ix2 (⟨j.val + 1, by omega⟩ : Fin 12) k) := by
  refine extractStridedSlice_apply ![1, 0] v3 h (ix2 j k) (ix2 (⟨j.val + 1, by omega⟩ : Fin 12) k) (fun a => ?_)
  match a with
  | ⟨0, _⟩ => exact Nat.add_comm _ _
  | ⟨1, _⟩ => simp

/-- The first coefficient table at (d, k): Σ_j F(d,j)·W1(j+1,k) + W1(0,k). -/
theorem tabA (v3 : FVec Ideal S12x20 .f32) (v4 : FVec Ideal S1024x10 .f32) (d : Fin 1024) (k : Fin 20) :
    addf (matmul dot_S1024x10_S10x20_S1024x20_1_0_0_1_n_n (some .fp32) v4
        (extractStridedSlice S10x20 ![1, 0] v3 Facts₀.slices_S12x20_o1_0_S10x20) (constant (F := Ideal) S1024x20 .f32 0x00000000#32))
      (broadcastTo S1024x20 (extractStridedSlice S1x20 ![0, 0] v3 Facts₀.slices_S12x20_o0_0_S1x20) Facts₀.broadcasts_S1x20_S1024x20) (ix2 d k)
    = Cert.Spec.coefA v4 v3 d k := by
  rw [addf_apply, bias_row_apply, slice_row_apply v3 0 (by omega)]
  unfold Cert.Spec.coefA
  refine congrArg (· + _) ?_
  refine (Cert.LibPlainDot.matmul_zero_apply (M := 1024) (K := 10) (N := 20) (some .fp32) v4 _ d k).trans ?_
  exact Finset.sum_congr rfl fun j _ => congrArg (v4 (ix2 d j) * ·) (slice_mid_apply v3 _ j k)

/-- The all-zero f32 word is the number 0. -/
theorem zero_word : (Scalar.ofBits (F := Ideal) .f32 0x00000000#32 : EReal) = 0 :=
  (show Scalar.ofBits (F := Ideal) .f32 0x00000000#32 = Ideal.ofBits .f32 0x00000000#32 from rfl).trans Ideal.ofBits_zero_f32

/-- The second coefficient table at (d, k): bp(d,0)·W1(11,k) + b1(0,k). -/
theorem tabC (v3 : FVec Ideal S12x20 .f32) (v10 : FVec Ideal S1024x1 .f32) (v15 : FVec Ideal S1x20 .f32) (d : Fin 1024) (k : Fin 20) :
    addf (mulf (broadcastTo S1024x20 v10 Facts₀.broadcasts_S1024x1_S1024x20)
          (broadcastTo S1024x20 (extractStridedSlice S1x20 ![11, 0] v3 Facts₀.slices_S12x20_o11_0_S1x20) Facts₀.broadcasts_S1x20_S1024x20))
      (broadcastTo S1024x20 (shapeCast S1x20 v15 Facts₀.shapeCasts_S1x20_S1x20) Facts₀.broadcasts_S1x20_S1024x20) (ix2 d k)
    = Cert.Spec.coefC v10 v3 (fun k => v15 (ix2 (0 : Fin 1) k)) d k := by
  rw [addf_apply, mulf_apply, col_apply (by decide), bias_row_apply, bias_row_apply, slice_row_apply v3 11 (by omega), shapeCast_self]
  rfl

/-- The pooled block at (r, k), for any two tables A and C: relu(Σ_d (x·mask)(r,d)·A(d,k) + Σ_d mask(r,d)·C(d,k)). -/
theorem pooled_apply (v0 v1 : FVec Ideal S512x1024 .f32) (A C : FVec Ideal S1024x20 .f32) (r : Fin 512) (k : Fin 20) :
    maximumf (addf (matmul dot_S512x1024_S1024x20_S512x20_1_0_0_1_n_n (some .fp32) (mulf v0 v1) A (constant (F := Ideal) S512x20 .f32 0x00000000#32))
        (matmul dot_S512x1024_S1024x20_S512x20_1_0_0_1_n_n (some .fp32) v1 C (constant (F := Ideal) S512x20 .f32 0x00000000#32)))
      (broadcast S512x20 (Scalar.ofBits (F := Ideal) .f32 0x00000000#32)) (ix2 r k)
    = Cert.Spec.relu ((∑ d : Fin 1024, (v0 (ix2 r d) * v1 (ix2 r d)) * A (ix2 d k)) + (∑ d : Fin 1024, v1 (ix2 r d) * C (ix2 d k))) := by
  rw [maximumf_apply, addf_apply, broadcast_apply, zero_word]
  unfold Cert.Spec.relu
  refine congrArg (max · 0) (congrArg₂ (· + ·) ?_ ?_)
  · exact Cert.LibPlainDot.matmul_zero_apply (M := 512) (K := 1024) (N := 20) (some .fp32) (mulf v0 v1) A r k
  · exact Cert.LibPlainDot.matmul_zero_apply (M := 512) (K := 1024) (N := 20) (some .fp32) v1 C r k

/-- A dense layer on a block of rows: the product with the weights into the zero accumulator plus the bias row broadcast
    down the rows, at entry (r, q), is Σ_k h(r,k)·W(k,q) + bias(0,q). -/
theorem dense_apply {M K N : Nat} (D : DotDims ⟨2, ![M, K]⟩ ⟨2, ![K, N]⟩ ⟨2, ![M, N]⟩) (hD : D = DotDims.plain M K N)
    (h : FVec Ideal ⟨2, ![M, K]⟩ .f32) (W : FVec Ideal ⟨2, ![K, N]⟩ .f32) (bias : FVec Ideal ⟨2, ![1, N]⟩ .f32)
    (hc : (⟨2, ![1, N]⟩ : Shape).ShapeCasts ⟨2, ![1, N]⟩) (hb : (⟨2, ![1, N]⟩ : Shape).Broadcasts ⟨2, ![M, N]⟩) (r : Fin M) (q : Fin N) :
    addf (matmul D (some .fp32) h W (constant (F := Ideal) ⟨2, ![M, N]⟩ .f32 0x00000000#32))
      (broadcastTo ⟨2, ![M, N]⟩ (shapeCast ⟨2, ![1, N]⟩ bias hc) hb) (ix2 r q)
    = Cert.Spec.dense (fun k => h (ix2 r k)) W (fun q => bias (ix2 (0 : Fin 1) q)) q := by
  subst hD
  rw [addf_apply, bias_row_apply, shapeCast_self]
  unfold Cert.Spec.dense
  exact congrArg (· + _) (Cert.LibPlainDot.matmul_zero_apply (some .fp32) h W r q)

/-- The maximum with the broadcast zero word, at an entry, is relu of the entry. -/
theorem relu_apply {s : Shape} (v : FVec Ideal s .f32) (i : s.Idx) :
    maximumf v (broadcast s (Scalar.ofBits (F := Ideal) .f32 0x00000000#32)) i = Cert.Spec.relu (v i) := by
  rw [maximumf_apply, broadcast_apply, zero_word]; rfl

/-- The dense layer 20 → 500 on a block of 512 rows. -/
theorem dense1 (h : FVec Ideal S512x20 .f32) (W : FVec Ideal S20x500 .f32) (bias : FVec Ideal S1x500 .f32) (r : Fin 512) (q : Fin 500) :
    addf (matmul dot_S512x20_S20x500_S512x500_1_0_0_1_n_n (some .fp32) h W (constant (F := Ideal) S512x500 .f32 0x00000000#32))
      (broadcastTo S512x500 (shapeCast S1x500 bias Facts₀.shapeCasts_S1x500_S1x500) Facts₀.broadcasts_S1x500_S512x500) (ix2 r q)
    = Cert.Spec.dense (fun k => h (ix2 r k)) W (fun q => bias (ix2 (0 : Fin 1) q)) q :=
  dense_apply (M := 512) (K := 20) (N := 500) _ rfl h W bias _ _ r q

/-- The dense layer 500 → 200 on a block of 512 rows. -/
theorem dense2 (h : FVec Ideal S512x500 .f32) (W : FVec Ideal S500x200 .f32) (bias : FVec Ideal S1x200 .f32) (r : Fin 512) (q : Fin 200) :
    addf (matmul dot_S512x500_S500x200_S512x200_1_0_0_1_n_n (some .fp32) h W (constant (F := Ideal) S512x200 .f32 0x00000000#32))
      (broadcastTo S512x200 (shapeCast S1x200 bias Facts₀.shapeCasts_S1x200_S1x200) Facts₀.broadcasts_S1x200_S512x200) (ix2 r q)
    = Cert.Spec.dense (fun k => h (ix2 r k)) W (fun q => bias (ix2 (0 : Fin 1) q)) q :=
  dense_apply (M := 512) (K := 500) (N := 200) _ rfl h W bias _ _ r q

/-- The dense layer 200 → 20 on a block of 512 rows. -/
theorem dense3 (h : FVec Ideal S512x200 .f32) (W : FVec Ideal S200x20 .f32) (bias : FVec Ideal S1x20 .f32) (r : Fin 512) (q : Fin 20) :
    addf (matmul dot_S512x200_S200x20_S512x20_1_0_0_1_n_n (some .fp32) h W (constant (F := Ideal) S512x20 .f32 0x00000000#32))
      (broadcastTo S512x20 (shapeCast S1x20 bias Facts₀.shapeCasts_S1x20_S1x20) Facts₀.broadcasts_S1x20_S512x20) (ix2 r q)
    = Cert.Spec.dense (fun k => h (ix2 r k)) W (fun q => bias (ix2 (0 : Fin 1) q)) q :=
  dense_apply (M := 512) (K := 200) (N := 20) _ rfl h W bias _ _ r q

/-- The offsets (0, 0) are the zero offsets. -/
theorem hz : (![0, 0] : Fin 2 → Nat) = fun _ => 0 := funext fun a => by fin_cases a <;> rfl

/-- The block the body leaves is its one store's value of the loaded blocks: every load and the store go through the
    whole buffer at zero offsets. -/
theorem out_eq_pay (x0 x1 : Vec Ideal S512x1024 .f32) (x2 : Vec Ideal S1024x10 .f32) (x3 : Vec Ideal S1024x1 .f32)
    (x4 : Vec Ideal S12x20 .f32) (x5 : Vec Ideal S1x20 .f32) (x6 : Vec Ideal S20x500 .f32) (x7 : Vec Ideal S1x500 .f32)
    (x8 : Vec Ideal S500x200 .f32) (x9 : Vec Ideal S1x200 .f32) (x10 : Vec Ideal S200x20 .f32) (x11 : Vec Ideal S1x20 .f32) :
    out0_12 (F := Ideal) x0 x1 x2 x3 x4 x5 x6 x7 x8 x9 x10 x11
      = k0_pay1 (k0_pay2 x0 x1 x4 x2 x3 x5 x6 x7 x8) x9 x10 x11 := by
  unfold out0_12
  rw [View.canon_unit_zero hz]
  simp only [View.ld_unit_zero (S := S512x1024) hz, View.ld_unit_zero (S := S12x20) hz, View.ld_unit_zero (S := S1024x10) hz,
    View.ld_unit_zero (S := S1024x1) hz, View.ld_unit_zero (S := S1x20) hz, View.ld_unit_zero (S := S20x500) hz,
    View.ld_unit_zero (S := S1x500) hz, View.ld_unit_zero (S := S500x200) hz, View.ld_unit_zero (S := S1x200) hz,
    View.ld_unit_zero (S := S200x20) hz]

/-- Entry (r, n) of the block the body leaves: the three dense layers of the pooled vector of row r of the loaded
    x- and mask-blocks, the biases read from their [1, N] rows. -/
theorem block_apply (x0 x1 : Vec Ideal S512x1024 .f32) (x2 : Vec Ideal S1024x10 .f32) (x3 : Vec Ideal S1024x1 .f32)
    (x4 : Vec Ideal S12x20 .f32) (x5 : Vec Ideal S1x20 .f32) (x6 : Vec Ideal S20x500 .f32) (x7 : Vec Ideal S1x500 .f32)
    (x8 : Vec Ideal S500x200 .f32) (x9 : Vec Ideal S1x200 .f32) (x10 : Vec Ideal S200x20 .f32) (x11 : Vec Ideal S1x20 .f32)
    (r : Fin 512) (n : Fin 20) :
    out0_12 (F := Ideal) x0 x1 x2 x3 x4 x5 x6 x7 x8 x9 x10 x11 (ix2 r n)
      = Cert.Spec.head (Cert.Spec.pooledKrow (fun d => x0 (ix2 r d)) (fun d => x1 (ix2 r d)) x2 x3 x4 (fun k => x5 (ix2 (0 : Fin 1) k)))
          x6 (fun q => x7 (ix2 (0 : Fin 1) q)) x8 (fun q => x9 (ix2 (0 : Fin 1) q)) x10 (fun q => x11 (ix2 (0 : Fin 1) q)) n := by
  rw [out_eq_pay]
  unfold k0_pay1 k0_pay2 Cert.Spec.head
  refine (dense3 _ x10 x11 r n).trans ?_
  refine congrArg (fun h => Cert.Spec.dense h x10 _ n) (funext fun k3 => ?_)
  refine (relu_apply _ _).trans (congrArg Cert.Spec.relu ?_)
  refine (dense2 _ x8 x9 r k3).trans ?_
  refine congrArg (fun h => Cert.Spec.dense h x8 _ k3) (funext fun k2 => ?_)
  refine (relu_apply _ _).trans (congrArg Cert.Spec.relu ?_)
  refine (dense1 _ x6 x7 r k2).trans ?_
  refine congrArg (fun h => Cert.Spec.dense h x6 _ k2) (funext fun k1 => ?_)
  refine (pooled_apply x0 x1 _ _ r k1).trans ?_
  unfold Cert.Spec.pooledKrow
  refine congrArg Cert.Spec.relu (congrArg₂ (· + ·) ?_ ?_)
  · exact Finset.sum_congr rfl fun d _ => congrArg (_ * ·) (tabA x4 x2 d k1)
  · exact Finset.sum_congr rfl fun d _ => congrArg (_ * ·) (tabC x4 x3 x5 d k1)

end Cert.KerBlock

end
-- ==== Proof.KerArray.lean ====
/-
  From the blocks to the whole array.

  The grid has eight points; point t fetches rows 512·t … 512·t + 511 of x and of the mask, the whole of every
  small table, and writes back rows 512·t … 512·t + 511 of the [4096, 20] result. The four bias vectors reach the
  kernel as [1, N] arrays, reshaped by the host before the call: entry (0, q) of such an array is entry q of the
  vector. So entry (r, n) of the block point t writes is entry (512·t + r, n) of one function `G` of the twelve
  argument arrays (the specification's `outK`); the eight blocks tile the array (row i lies in block i / 512), hence
  the array the region leaves is `G`.
-/
import proofs.«107078_j15333033247098_2_alg».proof.Proof.KerBlock
import Idealize.ShloMosaic.Lib.StableHlo.Run

noncomputable section

open scoped BigOperators

namespace Cert.KerArray

open Cert.KernelIdeal Cert.KernelIdeal.Gen Idealize.ShloMosaic Idealize.ShloMosaic.TcCoe Idealize.ShloMosaic.ValueIdx Idealize.SL.Sem
open Idealize.ShloMosaic.Pipeline (Dat Cfg Window)

variable (m : (ℓ : Loc nD τ sig) → Buf (Elt Ideal) ℓ)

/-- The grid has eight points. -/
theorem N8 : cfg0.N = 8 := N_0

/-- Row r of block t is row 512·t + r of the array. -/
def rowOf (t : Fin cfg0.N) (r : Fin 512) : Fin 4096 := ⟨t.val * 512 + r.val, by have := t.isLt; have := N8; omega⟩

/-- The block indices of the three moving windows (x, the mask, the result): block row t, block column 0. Decided over the
    eight points. -/
theorem idx_facts : ∀ t : Fin cfg0.N,
    win0_0.index t (0 : Fin 2) = t.val ∧ win0_0.index t (1 : Fin 2) = 0
    ∧ win0_1.index t (0 : Fin 2) = t.val ∧ win0_1.index t (1 : Fin 2) = 0
    ∧ win0_12.index t (0 : Fin 2) = t.val ∧ win0_12.index t (1 : Fin 2) = 0 :=
  (by decide +kernel : ∀ t : Fin grid0.N, _)

/-- Every other window stays at block (0, 0) at every point. -/
theorem idx_small : ∀ t : Fin cfg0.N,
    (win0_2.index t (0 : Fin 2) = 0 ∧ win0_2.index t (1 : Fin 2) = 0)
    ∧ (win0_3.index t (0 : Fin 2) = 0 ∧ win0_3.index t (1 : Fin 2) = 0)
    ∧ (win0_4.index t (0 : Fin 2) = 0 ∧ win0_4.index t (1 : Fin 2) = 0)
    ∧ (win0_5.index t (0 : Fin 2) = 0 ∧ win0_5.index t (1 : Fin 2) = 0)
    ∧ (win0_6.index t (0 : Fin 2) = 0 ∧ win0_6.index t (1 : Fin 2) = 0)
    ∧ (win0_7.index t (0 : Fin 2) = 0 ∧ win0_7.index t (1 : Fin 2) = 0)
    ∧ (win0_8.index t (0 : Fin 2) = 0 ∧ win0_8.index t (1 : Fin 2) = 0)
    ∧ (win0_9.index t (0 : Fin 2) = 0 ∧ win0_9.index t (1 : Fin 2) = 0)
    ∧ (win0_10.index t (0 : Fin 2) = 0 ∧ win0_10.index t (1 : Fin 2) = 0)
    ∧ (win0_11.index t (0 : Fin 2) = 0 ∧ win0_11.index t (1 : Fin 2) = 0) :=
  (by decide +kernel : ∀ t : Fin grid0.N, _)

/-- Entry (r, n) of the result's block at point t sits at (512·t + r, n) of the array. -/
theorem emb12 (t : Fin cfg0.N) (r : Fin 512) (n : Fin 20) :
    ((cfg0.win 12).blk t).view.emb (ix2 r n) = ix2 (rowOf t r) n := by
  obtain ⟨-, -, -, -, e0, e1⟩ := idx_facts t
  funext a; apply Fin.ext
  match a with
  | ⟨0, _⟩ => show win0_12.index t (0 : Fin 2) * 512 + 1 * r.val = t.val * 512 + r.val; omega
  | ⟨1, _⟩ => show win0_12.index t (1 : Fin 2) * 20 + 1 * n.val = n.val; omega

/-- The x-block at point t, at (r, d), is x(512·t + r, d). -/
theorem blk0 (c : Dev nD) (t : Fin cfg0.N) (r : Fin 512) (d : Fin 1024) :
    iblk m c 0 t (ix2 r d) = m ((c : Thread nD τ).loc main_arg0) (ix2 (rowOf t r) d) := by
  obtain ⟨e0, e1, -, -, -, -⟩ := idx_facts t
  unfold iblk
  show V m c main_arg0 (((cfg0.win 0).blk t).view.emb (ix2 r d)) = _
  rw [V_main_arg0]
  refine congrArg _ (funext fun a => Fin.ext ?_)
  match a with
  | ⟨0, _⟩ => show win0_0.index t (0 : Fin 2) * 512 + 1 * r.val = t.val * 512 + r.val; omega
  | ⟨1, _⟩ => show win0_0.index t (1 : Fin 2) * 1024 + 1 * d.val = d.val; omega

/-- The mask-block at point t, at (r, d), is mask(512·t + r, d). -/
theorem blk1 (c : Dev nD) (t : Fin cfg0.N) (r : Fin 512) (d : Fin 1024) :
    iblk m c 1 t (ix2 r d) = m ((c : Thread nD τ).loc main_arg1) (ix2 (rowOf t r) d) := by
  obtain ⟨-, -, e0, e1, -, -⟩ := idx_facts t
  unfold iblk
  show V m c main_arg1 (((cfg0.win 1).blk t).view.emb (ix2 r d)) = _
  rw [V_main_arg1]
  refine congrArg _ (funext fun a => Fin.ext ?_)
  match a with
  | ⟨0, _⟩ => show win0_1.index t (0 : Fin 2) * 512 + 1 * r.val = t.val * 512 + r.val; omega
  | ⟨1, _⟩ => show win0_1.index t (1 : Fin 2) * 1024 + 1 * d.val = d.val; omega

/-- Window 2's block at every point is the whole of its array, as the region finds it. -/
theorem blk2 (c : Dev nD) (t : Fin cfg0.N) : iblk m c 2 t = m ((c : Thread nD τ).loc main_arg2) := by
  obtain ⟨e0, e1⟩ := (idx_small t).1
  unfold iblk
  funext y
  show V m c main_arg2 (((cfg0.win 2).blk t).view.emb y) = _
  rw [V_main_arg2]
  refine congrArg _ (funext fun a => Fin.ext ?_)
  match a with
  | ⟨0, _⟩ => show win0_2.index t (0 : Fin 2) * 1024 + 1 * (y 0).val = (y 0).val; omega
  | ⟨1, _⟩ => show win0_2.index t (1 : Fin 2) * 10 + 1 * (y 1).val = (y 1).val; omega

/-- Window 3's block at every point is the whole of its array, as the region finds it. -/
theorem blk3 (c : Dev nD) (t : Fin cfg0.N) : iblk m c 3 t = m ((c : Thread nD τ).loc main_arg3) := by
  obtain ⟨e0, e1⟩ := (idx_small t).2.1
  unfold iblk
  funext y
  show V m c main_arg3 (((cfg0.win 3).blk t).view.emb y) = _
  rw [V_main_arg3]
  refine congrArg _ (funext fun a => Fin.ext ?_)
  match a with
  | ⟨0, _⟩ => show win0_3.index t (0 : Fin 2) * 1024 + 1 * (y 0).val = (y 0).val; omega
  | ⟨1, _⟩ => show win0_3.index t (1 : Fin 2) * 1 + 1 * (y 1).val = (y 1).val; omega

/-- Window 4's block at every point is the whole of its array, as the region finds it. -/
theorem blk4 (c : Dev nD) (t : Fin cfg0.N) : iblk m c 4 t = m ((c : Thread nD τ).loc main_arg4) := by
  obtain ⟨e0, e1⟩ := (idx_small t).2.2.1
  unfold iblk
  funext y
  show V m c main_arg4 (((cfg0.win 4).blk t).view.emb y) = _
  rw [V_main_arg4]
  refine congrArg _ (funext fun a => Fin.ext ?_)
  match a with
  | ⟨0, _⟩ => show win0_4.index t (0 : Fin 2) * 12 + 1 * (y 0).val = (y 0).val; omega
  | ⟨1, _⟩ => show win0_4.index t (1 : Fin 2) * 20 + 1 * (y 1).val = (y 1).val; omega

/-- A vector [N] reshaped to [1, N], at (0, q), is the vector's entry q (both sit at position q in row-major order). -/
theorem row_of_vec {N : Nat} (v : (⟨1, ![N]⟩ : Shape).Idx → EReal) (h : (⟨1, ![N]⟩ : Shape).ShapeCasts ⟨2, ![1, N]⟩) (q : Fin N) :
    shapeCast ⟨2, ![1, N]⟩ v h (ix2 (0 : Fin 1) q) = v (ix1 q) := by
  refine shapeCast_apply v h (ix2 (0 : Fin 1) q) (ix1 q) ?_
  rw [Shape.rowMajor_val_one, Shape.rowMajor_val_two]
  show q.val = 0 * N + q.val
  omega

/-- The host's reshape before the call: the array the kernel stages is the bias vector recast to one row. -/
theorem V_v0 (c : Dev nD) : (V m c main_v0 : S1x20.Idx → EReal) = shapeCast S1x20 (m ((c : Thread nD τ).loc main_arg5)) Facts₀.shapeCasts_S20_S1x20 := by
  show StableHlo.after hostOps0 (fun b => m (c, b)) (Proc.devRef .tc main_v0) = _
  after_results
  rfl

/-- Window 5's block at every point, at (0, k), is entry k of the bias vector. -/
theorem blk5 (c : Dev nD) (t : Fin cfg0.N) (k : Fin 20) :
    iblk m c 5 t (ix2 (0 : Fin 1) k) = m ((c : Thread nD τ).loc main_arg5) (ix1 k) := by
  obtain ⟨e0, e1⟩ := (idx_small t).2.2.2.1
  unfold iblk
  show V m c main_v0 (((cfg0.win 5).blk t).view.emb (ix2 (0 : Fin 1) k)) = _
  rw [V_v0]
  refine Eq.trans (congrArg _ (funext fun a => Fin.ext ?_)) (row_of_vec _ _ k)
  match a with
  | ⟨0, _⟩ => show win0_5.index t (0 : Fin 2) * 1 + 1 * 0 = 0; omega
  | ⟨1, _⟩ => show win0_5.index t (1 : Fin 2) * 20 + 1 * k.val = k.val; omega

/-- Window 6's block at every point is the whole of its array, as the region finds it. -/
theorem blk6 (c : Dev nD) (t : Fin cfg0.N) : iblk m c 6 t = m ((c : Thread nD τ).loc main_arg6) := by
  obtain ⟨e0, e1⟩ := (idx_small t).2.2.2.2.1
  unfold iblk
  funext y
  show V m c main_arg6 (((cfg0.win 6).blk t).view.emb y) = _
  rw [V_main_arg6]
  refine congrArg _ (funext fun a => Fin.ext ?_)
  match a with
  | ⟨0, _⟩ => show win0_6.index t (0 : Fin 2) * 20 + 1 * (y 0).val = (y 0).val; omega
  | ⟨1, _⟩ => show win0_6.index t (1 : Fin 2) * 500 + 1 * (y 1).val = (y 1).val; omega

/-- The host's reshape before the call: the array the kernel stages is the bias vector recast to one row. -/
theorem V_v1 (c : Dev nD) : (V m c main_v1 : S1x500.Idx → EReal) = shapeCast S1x500 (m ((c : Thread nD τ).loc main_arg7)) Facts₀.shapeCasts_S500_S1x500 := by
  show StableHlo.after hostOps0 (fun b => m (c, b)) (Proc.devRef .tc main_v1) = _
  after_results
  rfl

/-- Window 7's block at every point, at (0, k), is entry k of the bias vector. -/
theorem blk7 (c : Dev nD) (t : Fin cfg0.N) (k : Fin 500) :
    iblk m c 7 t (ix2 (0 : Fin 1) k) = m ((c : Thread nD τ).loc main_arg7) (ix1 k) := by
  obtain ⟨e0, e1⟩ := (idx_small t).2.2.2.2.2.1
  unfold iblk
  show V m c main_v1 (((cfg0.win 7).blk t).view.emb (ix2 (0 : Fin 1) k)) = _
  rw [V_v1]
  refine Eq.trans (congrArg _ (funext fun a => Fin.ext ?_)) (row_of_vec _ _ k)
  match a with
  | ⟨0, _⟩ => show win0_7.index t (0 : Fin 2) * 1 + 1 * 0 = 0; omega
  | ⟨1, _⟩ => show win0_7.index t (1 : Fin 2) * 500 + 1 * k.val = k.val; omega

/-- Window 8's block at every point is the whole of its array, as the region finds it. -/
theorem blk8 (c : Dev nD) (t : Fin cfg0.N) : iblk m c 8 t = m ((c : Thread nD τ).loc main_arg8) := by
  obtain ⟨e0, e1⟩ := (idx_small t).2.2.2.2.2.2.1
  unfold iblk
  funext y
  show V m c main_arg8 (((cfg0.win 8).blk t).view.emb y) = _
  rw [V_main_arg8]
  refine congrArg _ (funext fun a => Fin.ext ?_)
  match a with
  | ⟨0, _⟩ => show win0_8.index t (0 : Fin 2) * 500 + 1 * (y 0).val = (y 0).val; omega
  | ⟨1, _⟩ => show win0_8.index t (1 : Fin 2) * 200 + 1 * (y 1).val = (y 1).val; omega

/-- The host's reshape before the call: the array the kernel stages is the bias vector recast to one row. -/
theorem V_v2 (c : Dev nD) : (V m c main_v2 : S1x200.Idx → EReal) = shapeCast S1x200 (m ((c : Thread nD τ).loc main_arg9)) Facts₀.shapeCasts_S200_S1x200 := by
  show StableHlo.after hostOps0 (fun b => m (c, b)) (Proc.devRef .tc main_v2) = _
  after_results
  rfl

/-- Window 9's block at every point, at (0, k), is entry k of the bias vector. -/
theorem blk9 (c : Dev nD) (t : Fin cfg0.N) (k : Fin 200) :
    iblk m c 9 t (ix2 (0 : Fin 1) k) = m ((c : Thread nD τ).loc main_arg9) (ix1 k) := by
  obtain ⟨e0, e1⟩ := (idx_small t).2.2.2.2.2.2.2.1
  unfold iblk
  show V m c main_v2 (((cfg0.win 9).blk t).view.emb (ix2 (0 : Fin 1) k)) = _
  rw [V_v2]
  refine Eq.trans (congrArg _ (funext fun a => Fin.ext ?_)) (row_of_vec _ _ k)
  match a with
  | ⟨0, _⟩ => show win0_9.index t (0 : Fin 2) * 1 + 1 * 0 = 0; omega
  | ⟨1, _⟩ => show win0_9.index t (1 : Fin 2) * 200 + 1 * k.val = k.val; omega

/-- Window 10's block at every point is the whole of its array, as the region finds it. -/
theorem blk10 (c : Dev nD) (t : Fin cfg0.N) : iblk m c 10 t = m ((c : Thread nD τ).loc main_arg10) := by
  obtain ⟨e0, e1⟩ := (idx_small t).2.2.2.2.2.2.2.2.1
  unfold iblk
  funext y
  show V m c main_arg10 (((cfg0.win 10).blk t).view.emb y) = _
  rw [V_main_arg10]
  refine congrArg _ (funext fun a => Fin.ext ?_)
  match a with
  | ⟨0, _⟩ => show win0_10.index t (0 : Fin 2) * 200 + 1 * (y 0).val = (y 0).val; omega
  | ⟨1, _⟩ => show win0_10.index t (1 : Fin 2) * 20 + 1 * (y 1).val = (y 1).val; omega

/-- The host's reshape before the call: the array the kernel stages is the bias vector recast to one row. -/
theorem V_v3 (c : Dev nD) : (V m c main_v3 : S1x20.Idx → EReal) = shapeCast S1x20 (m ((c : Thread nD τ).loc main_arg11)) Facts₀.shapeCasts_S20_S1x20 := by
  show StableHlo.after hostOps0 (fun b => m (c, b)) (Proc.devRef .tc main_v3) = _
  after_results
  rfl

/-- Window 11's block at every point, at (0, k), is entry k of the bias vector. -/
theorem blk11 (c : Dev nD) (t : Fin cfg0.N) (k : Fin 20) :
    iblk m c 11 t (ix2 (0 : Fin 1) k) = m ((c : Thread nD τ).loc main_arg11) (ix1 k) := by
  obtain ⟨e0, e1⟩ := (idx_small t).2.2.2.2.2.2.2.2.2
  unfold iblk
  show V m c main_v3 (((cfg0.win 11).blk t).view.emb (ix2 (0 : Fin 1) k)) = _
  rw [V_v3]
  refine Eq.trans (congrArg _ (funext fun a => Fin.ext ?_)) (row_of_vec _ _ k)
  match a with
  | ⟨0, _⟩ => show win0_11.index t (0 : Fin 2) * 1 + 1 * 0 = 0; omega
  | ⟨1, _⟩ => show win0_11.index t (1 : Fin 2) * 20 + 1 * k.val = k.val; omega

/-- The [4096, 20] array the region leaves, as a function of the argument arrays. -/
def G (c : Dev nD) : S4096x20.Idx → EReal := fun i =>
  Cert.Spec.outK (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) (i 0) (i 1)

/-- What point t writes back is block t of `G`. -/
theorem flushed_eq (c : Dev nD) (t : Fin cfg0.N) :
    (dats m 0 c).flushed 12 t = ((cfg0.win 12).blk t).view.read (Elt Ideal) (G m c) := by
  show (cfg0.win 12).cut (grid0.coords t) ((dats m 0 c).after 12 t) = _
  rw [after0_12]
  funext j
  obtain ⟨r, n, rfl⟩ : ∃ (r : Fin 512) (n : Fin 20), j = ix2 r n := ⟨j 0, j 1, eq_ix2 j⟩
  show out0_12 (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (ix2 r n) = G m c (((cfg0.win 12).blk t).view.emb (ix2 r n))
  rw [emb12]
  refine (Cert.KerBlock.block_apply (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) r n).trans ?_
  have h0 : (fun d => iblk m c 0 t (ix2 r d)) = fun d => (m ((c : Thread nD τ).loc main_arg0)) (ix2 (rowOf t r) d) := funext (blk0 m c t r)
  have h1 : (fun d => iblk m c 1 t (ix2 r d)) = fun d => (m ((c : Thread nD τ).loc main_arg1)) (ix2 (rowOf t r) d) := funext (blk1 m c t r)
  have h5 : (fun k => iblk m c 5 t (ix2 (0 : Fin 1) k)) = fun k => (m ((c : Thread nD τ).loc main_arg5)) (ix1 k) := funext (blk5 m c t)
  have h7 : (fun k => iblk m c 7 t (ix2 (0 : Fin 1) k)) = fun k => (m ((c : Thread nD τ).loc main_arg7)) (ix1 k) := funext (blk7 m c t)
  have h9 : (fun k => iblk m c 9 t (ix2 (0 : Fin 1) k)) = fun k => (m ((c : Thread nD τ).loc main_arg9)) (ix1 k) := funext (blk9 m c t)
  have h11 : (fun k => iblk m c 11 t (ix2 (0 : Fin 1) k)) = fun k => (m ((c : Thread nD τ).loc main_arg11)) (ix1 k) := funext (blk11 m c t)
  rw [h0, h1, h5, h7, h9, h11, blk2, blk3, blk4, blk6, blk8, blk10]
  rfl

/-- An index of the array lies in point t's block iff each coordinate lies in the block's range on its axis. -/
theorem mem_blk (t : Fin cfg0.N) (i : S4096x20.Idx) :
    i ∈ ((cfg0.win 12).blk t).view.set ↔ ∀ a : Fin 2, win0_12.index t a * S512x20.size a ≤ (i a).val ∧ (i a).val < win0_12.index t a * S512x20.size a + S512x20.size a := by
  show i ∈ ((View.whole main_v4).slice (win0_12.rect t)).set ↔ _
  rw [View.set_slice_whole, Rect.mem_set_unit]
  exact Iff.rfl

/-- Every index of the array lies in some point's block: row i is in block i / 512. -/
theorem cover (i : S4096x20.Idx) : ∃ t : Fin cfg0.N, (cfg0.win 12).flush t = true ∧ i ∈ ((cfg0.win 12).blk t).view.set := by
  have hi0 : (i 0).val < 4096 := (i 0).isLt
  have hi1 : (i 1).val < 20 := (i 1).isLt
  obtain ⟨t, ht⟩ : ∃ t : Fin cfg0.N, t.val = (i 0).val / 512 := ⟨⟨(i 0).val / 512, by have := N8; omega⟩, rfl⟩
  obtain ⟨-, -, -, -, e0, e1⟩ := idx_facts t
  refine ⟨t, flush0_12 t, ?_⟩
  rw [mem_blk]
  intro a
  match a with
  | ⟨0, _⟩ => show win0_12.index t (0 : Fin 2) * 512 ≤ (i 0).val ∧ (i 0).val < win0_12.index t (0 : Fin 2) * 512 + 512; omega
  | ⟨1, _⟩ => show win0_12.index t (1 : Fin 2) * 20 ≤ (i 1).val ∧ (i 1).val < win0_12.index t (1 : Fin 2) * 20 + 20; omega

/-- The array the region leaves is `G`. -/
theorem final (c : Dev nD) : (dats m 0 c).arrAt 12 cfg0.N = G m c :=
  (dats m 0 c).arrAt_eq_of_cover 12 (G m c) (fun t _ => flushed_eq m c t) cover

end Cert.KerArray

end
-- ==== Proof.KerRun.lean ====
/-
  The kernel program's run, read.

  The program reshapes the four bias vectors, launches the region, and returns two slices of the [4096, 20] array
  the region wrote: columns 0–9 (the mean) and columns 10–19 (the log-variance). The region leaves that array at
  the function `G` of the arguments, so each result is the corresponding slice of `G`; every argument array ends as
  it started (a staged input is never written back; a bias vector is only read by the host's reshape).
-/
import proofs.«107078_j15333033247098_2_alg».proof.Proof.KerArray
import Idealize.ShloMosaic.Lib.StableHlo.Run

noncomputable section

namespace Cert.KerRun

open Cert.KernelIdeal Cert.KernelIdeal.Gen Idealize.ShloMosaic Idealize.ShloMosaic.TcCoe Idealize.ShloMosaic.ValueIdx Idealize.SL.Sem
open Idealize.ShloMosaic.Pipeline (Dat Cfg Window)

variable (m : (ℓ : Loc nD τ sig) → Buf (Elt Ideal) ℓ) (ρ : Dev nD → PrngReg)

/-- The first result after the host's slice: columns 0–9 of `G`. -/
theorem tail5 (c : Dev nD) : Pipeline.afterTail₀ cfgs (dats m) 0 (V0 m) [hostOps1] c main_v5
    = extractStridedSlice S4096x10 ![0, 0] (Cert.KerArray.G m c) Facts₀.slices_S4096x20_S4096x10_0_0 := by
  unfold Pipeline.afterTail₀
  show StableHlo.after hostOps1 _ (Proc.devRef .tc main_v5) = _
  after_results
  refine congrArg (fun x : S4096x20.Idx → EReal => extractStridedSlice S4096x10 ![0, 0] x Facts₀.slices_S4096x20_S4096x10_0_0) ?_
  exact (Pipeline.withArrays_arr spec0 launch0.win.arr_inj c _ _ 12).trans (Cert.KerArray.final m c)

/-- The second result after the host's slice: columns 10–19 of `G`. -/
theorem tail6 (c : Dev nD) : Pipeline.afterTail₀ cfgs (dats m) 0 (V0 m) [hostOps1] c main_v6
    = extractStridedSlice S4096x10 ![0, 10] (Cert.KerArray.G m c) Facts₀.slices_S4096x20_S4096x10_0_10 := by
  unfold Pipeline.afterTail₀
  show StableHlo.after hostOps1 _ (Proc.devRef .tc main_v6) = _
  after_results
  refine congrArg (fun x : S4096x20.Idx → EReal => extractStridedSlice S4096x10 ![0, 10] x Facts₀.slices_S4096x20_S4096x10_0_10) ?_
  exact (Pipeline.withArrays_arr spec0 launch0.win.arr_inj c _ _ 12).trans (Cert.KerArray.final m c)

/-- Every weakly fair execution of the kernel program terminates with the two results at the two slices of `G` and the
    twelve arguments unchanged. -/
theorem run : θ_run defs (onTc (τ := τ) (main (F := Ideal))) ⟨m, fun _ => 0, ρ⟩ (fun r => ∀ c : Dev nD,
      r.2.mem ((c : Thread nD τ).loc main_v5) = extractStridedSlice S4096x10 ![0, 0] (Cert.KerArray.G m c) Facts₀.slices_S4096x20_S4096x10_0_0
      ∧ r.2.mem ((c : Thread nD τ).loc main_v6) = extractStridedSlice S4096x10 ![0, 10] (Cert.KerArray.G m c) Facts₀.slices_S4096x20_S4096x10_0_10
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5)
      ∧ r.2.mem ((c : Thread nD τ).loc main_arg6) = m ((c : Thread nD τ).loc main_arg6)
      ∧ r.2.mem ((c : Thread nD τ).loc main_arg7) = m ((c : Thread nD τ).loc main_arg7)
      ∧ r.2.mem ((c : Thread nD τ).loc main_arg8) = m ((c : Thread nD τ).loc main_arg8)
      ∧ r.2.mem ((c : Thread nD τ).loc main_arg9) = m ((c : Thread nD τ).loc main_arg9)
      ∧ r.2.mem ((c : Thread nD τ).loc main_arg10) = m ((c : Thread nD τ).loc main_arg10)
      ∧ r.2.mem ((c : Thread nD τ).loc main_arg11) = m ((c : Thread nD τ).loc main_arg11)) :=
  (θ_run defs _ _).mono (fun r h c =>
    ⟨((h c).2 main_v5 (Pipeline.mem_restRefs_of main_v5 (by decide) (by decide))).trans (tail5 m c),
      ((h c).2 main_v6 (Pipeline.mem_restRefs_of main_v6 (by decide) (by decide))).trans (tail6 m c),
      ((h c).1 0).trans ((((dats m) 0 c).arrAt_in 0 rfl _).trans ((A_eq m c 0).trans (V_main_arg0 m c))),
      ((h c).1 1).trans ((((dats m) 0 c).arrAt_in 1 rfl _).trans ((A_eq m c 1).trans (V_main_arg1 m c))),
      ((h c).1 2).trans ((((dats m) 0 c).arrAt_in 2 rfl _).trans ((A_eq m c 2).trans (V_main_arg2 m c))),
      ((h c).1 3).trans ((((dats m) 0 c).arrAt_in 3 rfl _).trans ((A_eq m c 3).trans (V_main_arg3 m c))),
      ((h c).1 4).trans ((((dats m) 0 c).arrAt_in 4 rfl _).trans ((A_eq m c 4).trans (V_main_arg4 m c))),
      ((h c).2 main_arg5 (Pipeline.mem_restRefs_of main_arg5 (by decide) (by decide))).trans (W_main_arg5 m (dats m) c),
      ((h c).1 6).trans ((((dats m) 0 c).arrAt_in 6 rfl _).trans ((A_eq m c 6).trans (V_main_arg6 m c))),
      ((h c).2 main_arg7 (Pipeline.mem_restRefs_of main_arg7 (by decide) (by decide))).trans (W_main_arg7 m (dats m) c),
      ((h c).1 8).trans ((((dats m) 0 c).arrAt_in 8 rfl _).trans ((A_eq m c 8).trans (V_main_arg8 m c))),
      ((h c).2 main_arg9 (Pipeline.mem_restRefs_of main_arg9 (by decide) (by decide))).trans (W_main_arg9 m (dats m) c),
      ((h c).1 10).trans ((((dats m) 0 c).arrAt_in 10 rfl _).trans ((A_eq m c 10).trans (V_main_arg10 m c))),
      ((h c).2 main_arg11 (Pipeline.mem_restRefs_of main_arg11 (by decide) (by decide))).trans (W_main_arg11 m (dats m) c)⟩)
    (run_main m ρ)

end Cert.KerRun

end
-- ==== Proof.Bridge.lean ====
/-
  The two programs compute one array.

  The reference's [4096, 20] array, entry by entry, is the specification's `outR` (the feature layer applied point
  by point); the kernel's is `outK` (the feature layer folded into two tables). When the first six arguments hold
  real numbers — which the precondition gives — the two agree, so the reference's array is the kernel's `G`.
-/
import proofs.«107078_j15333033247098_2_alg».proof.Proof.RefValue
import proofs.«107078_j15333033247098_2_alg».proof.Proof.Algebra
import proofs.«107078_j15333033247098_2_alg».proof.Proof.Finite
import proofs.«107078_j15333033247098_2_alg».proof.Proof.KerRun

noncomputable section

namespace Cert.Bridge

open Idealize.ShloMosaic Idealize.ShloMosaic.ValueIdx Idealize.SL.Sem Cert.Spec

/-- The reference's array of real arguments is, entry by entry, the folded form of the specification. -/
theorem array_eq (a0 a1 : Mat 4096 1024) (a2 : Mat 1024 10) (a3 : Mat 1024 1) (a4 : Mat 12 20) (a5 : Vc 20)
    (a6 : Mat 20 500) (a7 : Vc 500) (a8 : Mat 500 200) (a9 : Vc 200) (a10 : Mat 200 20) (a11 : Vc 20)
    (h0 : IsReal a0) (h1 : IsReal a1) (h2 : IsReal a2) (h3 : IsReal a3) (h4 : IsReal a4) (h5 : IsReal a5) :
    Cert.ReferenceIdeal.Read.val_main_v30 (F := Ideal) a0 a1 a2 a3 a4 a5 a6 a7 a8 a9 a10 a11
      = fun i => outK a0 a1 a2 a3 a4 a5 a6 a7 a8 a9 a10 a11 (i 0) (i 1) := by
  funext i
  obtain ⟨b, n, rfl⟩ : ∃ (b : Fin 4096) (n : Fin 20), i = ix2 b n := ⟨i 0, i 1, eq_ix2 i⟩
  exact (Cert.RefValue.ref_out a0 a1 a2 a3 a4 a5 a6 a7 a8 a9 a10 a11 b n).trans
    (out_eq a0 a1 a2 a3 a4 a5 a6 a7 a8 a9 a10 a11 h0 h1 h2 h3 h4 h5 b n).symm

/-- Under the precondition the reference's array of the kernel's arguments is the kernel's `G`. -/
theorem ref_array_eq_G [Cert.Pre_finite_inputs.Facts]
    (m : (ℓ : Loc Cert.KernelIdeal.nD Cert.KernelIdeal.τ Cert.KernelIdeal.sig) → Buf (Elt Ideal) ℓ)
    (hpre : Cert.Pre_KernelIdeal m) (c : Dev Cert.KernelIdeal.nD) :
    Cert.ReferenceIdeal.Read.val_main_v30 (F := Ideal) (m ((c.tc : Thread Cert.KernelIdeal.nD Cert.KernelIdeal.τ).loc Cert.KernelIdeal.main_arg0))
      (m ((c.tc : Thread Cert.KernelIdeal.nD Cert.KernelIdeal.τ).loc Cert.KernelIdeal.main_arg1))
      (m ((c.tc : Thread Cert.KernelIdeal.nD Cert.KernelIdeal.τ).loc Cert.KernelIdeal.main_arg2))
      (m ((c.tc : Thread Cert.KernelIdeal.nD Cert.KernelIdeal.τ).loc Cert.KernelIdeal.main_arg3))
      (m ((c.tc : Thread Cert.KernelIdeal.nD Cert.KernelIdeal.τ).loc Cert.KernelIdeal.main_arg4))
      (m ((c.tc : Thread Cert.KernelIdeal.nD Cert.KernelIdeal.τ).loc Cert.KernelIdeal.main_arg5))
      (m ((c.tc : Thread Cert.KernelIdeal.nD Cert.KernelIdeal.τ).loc Cert.KernelIdeal.main_arg6))
      (m ((c.tc : Thread Cert.KernelIdeal.nD Cert.KernelIdeal.τ).loc Cert.KernelIdeal.main_arg7))
      (m ((c.tc : Thread Cert.KernelIdeal.nD Cert.KernelIdeal.τ).loc Cert.KernelIdeal.main_arg8))
      (m ((c.tc : Thread Cert.KernelIdeal.nD Cert.KernelIdeal.τ).loc Cert.KernelIdeal.main_arg9))
      (m ((c.tc : Thread Cert.KernelIdeal.nD Cert.KernelIdeal.τ).loc Cert.KernelIdeal.main_arg10))
      (m ((c.tc : Thread Cert.KernelIdeal.nD Cert.KernelIdeal.τ).loc Cert.KernelIdeal.main_arg11))
      = Cert.KerArray.G m c := by
  obtain ⟨h0, h1, h2, h3, h4, h5⟩ := Cert.Finite.real_of_pre m hpre c
  exact array_eq _ _ _ _ _ _ _ _ _ _ _ _ h0 h1 h2 h3 h4 h5

/-- Arrays equal to the kernel's arguments give, as the reference's two results, the two slices of the kernel's `G`. -/
theorem results_of_agree [Cert.Pre_finite_inputs.Facts]
    (m : (ℓ : Loc Cert.KernelIdeal.nD Cert.KernelIdeal.τ Cert.KernelIdeal.sig) → Buf (Elt Ideal) ℓ)
    (hpre : Cert.Pre_KernelIdeal m) (c : Dev Cert.KernelIdeal.nD)
    (b0 : Mat 4096 1024) (b1 : Mat 4096 1024) (b2 : Mat 1024 10) (b3 : Mat 1024 1) (b4 : Mat 12 20) (b5 : Vc 20) (b6 : Mat 20 500) (b7 : Vc 500) (b8 : Mat 500 200) (b9 : Vc 200) (b10 : Mat 200 20) (b11 : Vc 20)
    (e0 : b0 = (m ((c.tc : Thread Cert.KernelIdeal.nD Cert.KernelIdeal.τ).loc Cert.KernelIdeal.main_arg0)))
    (e1 : b1 = (m ((c.tc : Thread Cert.KernelIdeal.nD Cert.KernelIdeal.τ).loc Cert.KernelIdeal.main_arg1)))
    (e2 : b2 = (m ((c.tc : Thread Cert.KernelIdeal.nD Cert.KernelIdeal.τ).loc Cert.KernelIdeal.main_arg2)))
    (e3 : b3 = (m ((c.tc : Thread Cert.KernelIdeal.nD Cert.KernelIdeal.τ).loc Cert.KernelIdeal.main_arg3)))
    (e4 : b4 = (m ((c.tc : Thread Cert.KernelIdeal.nD Cert.KernelIdeal.τ).loc Cert.KernelIdeal.main_arg4)))
    (e5 : b5 = (m ((c.tc : Thread Cert.KernelIdeal.nD Cert.KernelIdeal.τ).loc Cert.KernelIdeal.main_arg5)))
    (e6 : b6 = (m ((c.tc : Thread Cert.KernelIdeal.nD Cert.KernelIdeal.τ).loc Cert.KernelIdeal.main_arg6)))
    (e7 : b7 = (m ((c.tc : Thread Cert.KernelIdeal.nD Cert.KernelIdeal.τ).loc Cert.KernelIdeal.main_arg7)))
    (e8 : b8 = (m ((c.tc : Thread Cert.KernelIdeal.nD Cert.KernelIdeal.τ).loc Cert.KernelIdeal.main_arg8)))
    (e9 : b9 = (m ((c.tc : Thread Cert.KernelIdeal.nD Cert.KernelIdeal.τ).loc Cert.KernelIdeal.main_arg9)))
    (e10 : b10 = (m ((c.tc : Thread Cert.KernelIdeal.nD Cert.KernelIdeal.τ).loc Cert.KernelIdeal.main_arg10)))
    (e11 : b11 = (m ((c.tc : Thread Cert.KernelIdeal.nD Cert.KernelIdeal.τ).loc Cert.KernelIdeal.main_arg11))) :
    Cert.ReferenceIdeal.Read.val_main_v31 (F := Ideal) b0 b1 b2 b3 b4 b5 b6 b7 b8 b9 b10 b11
        = extractStridedSlice Cert.KernelIdeal.S4096x10 ![0, 0] (Cert.KerArray.G m c) Cert.KernelIdeal.Facts₀.slices_S4096x20_S4096x10_0_0
    ∧ Cert.ReferenceIdeal.Read.val_main_v32 (F := Ideal) b0 b1 b2 b3 b4 b5 b6 b7 b8 b9 b10 b11
        = extractStridedSlice Cert.KernelIdeal.S4096x10 ![0, 10] (Cert.KerArray.G m c) Cert.KernelIdeal.Facts₀.slices_S4096x20_S4096x10_0_10 := by
  subst e0 e1 e2 e3 e4 e5 e6 e7 e8 e9 e10 e11
  have hG := ref_array_eq_G m hpre c
  constructor
  · unfold Cert.ReferenceIdeal.Read.val_main_v31
    rw [hG]
  · unfold Cert.ReferenceIdeal.Read.val_main_v32
    rw [hG]

end Cert.Bridge

end
-- ==== Proof.lean ====
/-
  The kernel against its reference: a masked sum-pool of a per-point dense layer, followed by a three-layer encoder.

  For a batch row b the reference forms, at every point d, the twelve features [x, x·F(d,0..9), bp(d)], applies the
  dense layer W1 (12 → 20) with bias b1, weights the result by mask(b,d), sums over the 1024 points and applies a
  relu; three dense layers (20 → 500 → 200 → 20, a relu after the first two) follow, and the two results are the
  first and the last ten columns. The kernel never forms the features: it folds W1 into the two tables
  A(d,k) = Σ_j F(d,j)·W1(1+j,k) + W1(0,k) and C(d,k) = bp(d)·W1(11,k) + b1(k) and computes
  relu((x·mask) · A + mask · C), then the same three layers, on blocks of 512 rows. The two pooled vectors agree by
  distributivity, which on the extended reals needs the entries of x, mask, F, bp, W1 and b1 to be real numbers:
  the precondition says every input is finite. After the pooling the two programs are the same sums in the same order.

  The modules: Spec (the function, in both arrangements), Algebra (the two arrangements agree on real entries),
  Finite (the precondition makes the entries real), RefValue (the reference's array is the specification, entry by
  entry), KerBlock (one block of the kernel's result), KerArray (the eight blocks tile the array), KerRun (the
  kernel program's run with its two slices), Bridge (the reference's array is the kernel's).
-/
import proofs.«107078_j15333033247098_2_alg».proof.Defs
import proofs.«107078_j15333033247098_2_alg».proof.Proof.Gen.Kernel
import proofs.«107078_j15333033247098_2_alg».proof.Proof.Gen.Kernel.Skeleton
import proofs.«107078_j15333033247098_2_alg».proof.Proof.Gen.Kernel.Launch
import proofs.«107078_j15333033247098_2_alg».proof.Proof.Gen.Kernel.Points
import proofs.«107078_j15333033247098_2_alg».proof.Proof.Gen.Kernel.Frame
import proofs.«107078_j15333033247098_2_alg».proof.Proof.Gen.KernelIdeal
import proofs.«107078_j15333033247098_2_alg».proof.Proof.Gen.KernelIdeal.Skeleton
import proofs.«107078_j15333033247098_2_alg».proof.Proof.Gen.KernelIdeal.Launch
import proofs.«107078_j15333033247098_2_alg».proof.Proof.Gen.KernelIdeal.Points
import proofs.«107078_j15333033247098_2_alg».proof.Proof.Gen.KernelIdeal.Frame
import proofs.«107078_j15333033247098_2_alg».proof.Proof.Gen.ReferenceIdeal
import proofs.«107078_j15333033247098_2_alg».proof.Proof.Gen.Pre_finite_inputs
import proofs.«107078_j15333033247098_2_alg».proof.Proof.Gen.ReferenceIdeal.Run
import proofs.«107078_j15333033247098_2_alg».proof.Proof.Gen.ReferenceIdeal.Read
import proofs.«107078_j15333033247098_2_alg».proof.Proof.Bridge
import Idealize.ShloMosaic.Adequacy
import Idealize.ShloMosaic.Init

noncomputable section

namespace Cert.Proof

open Idealize.ShloMosaic Idealize.SL.Sem

/-- The reference program runs and leaves its arguments unchanged: its run with the two results dropped. -/
theorem frame_ri [Cert.ReferenceIdeal.Facts] [Cert.Pre_finite_inputs.Facts] : Cert.frame_ReferenceIdeal := fun m ρ _ =>
  (θ_run Cert.ReferenceIdeal.defs _ _).mono (fun _ h c => (h c).2.2) (Cert.ReferenceIdeal.Value.run (F := Ideal) m ρ)

/-- From memories agreeing on the arguments both programs end with each result at the same slice of one array: the
    kernel's `G` of its arguments, which under the precondition is the reference's array of the same arguments. -/
theorem algebraic : Cert.algebraic_KernelIdeal_ReferenceIdeal (hKernelIdeal := Cert.KernelIdeal.Gen.facts)
    (hReferenceIdeal := Cert.ReferenceIdeal.Gen.facts) (hPre_finite_inputs := Cert.Pre_finite_inputs.Gen.facts) := by
  intro m ρ m' ρ' hpre hagree
  refine ⟨_, _, Cert.KerRun.run m ρ, ?_⟩
  refine (θ_run Cert.ReferenceIdeal.defs _ _).mono (fun _ h c => ⟨(h c).1.trans ?_, (h c).2.1.trans ?_, (h c).2.2⟩)
    (Cert.ReferenceIdeal.Value.run (F := Ideal) m' ρ')
  · obtain ⟨a0, a1, a2, a3, a4, a5, a6, a7, a8, a9, a10, a11⟩ := hagree c
    exact (Cert.ReferenceIdeal.Read.val_main_v31_eq (F := Ideal) (m' ((c.tc : Thread Cert.ReferenceIdeal.nD Cert.ReferenceIdeal.τ).loc Cert.ReferenceIdeal.main_arg0)) (m' ((c.tc : Thread Cert.ReferenceIdeal.nD Cert.ReferenceIdeal.τ).loc Cert.ReferenceIdeal.main_arg1)) (m' ((c.tc : Thread Cert.ReferenceIdeal.nD Cert.ReferenceIdeal.τ).loc Cert.ReferenceIdeal.main_arg2)) (m' ((c.tc : Thread Cert.ReferenceIdeal.nD Cert.ReferenceIdeal.τ).loc Cert.ReferenceIdeal.main_arg3)) (m' ((c.tc : Thread Cert.ReferenceIdeal.nD Cert.ReferenceIdeal.τ).loc Cert.ReferenceIdeal.main_arg4)) (m' ((c.tc : Thread Cert.ReferenceIdeal.nD Cert.ReferenceIdeal.τ).loc Cert.ReferenceIdeal.main_arg5)) (m' ((c.tc : Thread Cert.ReferenceIdeal.nD Cert.ReferenceIdeal.τ).loc Cert.ReferenceIdeal.main_arg6)) (m' ((c.tc : Thread Cert.ReferenceIdeal.nD Cert.ReferenceIdeal.τ).loc Cert.ReferenceIdeal.main_arg7)) (m' ((c.tc : Thread Cert.ReferenceIdeal.nD Cert.ReferenceIdeal.τ).loc Cert.ReferenceIdeal.main_arg8)) (m' ((c.tc : Thread Cert.ReferenceIdeal.nD Cert.ReferenceIdeal.τ).loc Cert.ReferenceIdeal.main_arg9)) (m' ((c.tc : Thread Cert.ReferenceIdeal.nD Cert.ReferenceIdeal.τ).loc Cert.ReferenceIdeal.main_arg10)) (m' ((c.tc : Thread Cert.ReferenceIdeal.nD Cert.ReferenceIdeal.τ).loc Cert.ReferenceIdeal.main_arg11))).trans
      (Cert.Bridge.results_of_agree m hpre c _ _ _ _ _ _ _ _ _ _ _ _ a0 a1 a2 a3 a4 a5 a6 a7 a8 a9 a10 a11).1
  · obtain ⟨a0, a1, a2, a3, a4, a5, a6, a7, a8, a9, a10, a11⟩ := hagree c
    exact (Cert.ReferenceIdeal.Read.val_main_v32_eq (F := Ideal) (m' ((c.tc : Thread Cert.ReferenceIdeal.nD Cert.ReferenceIdeal.τ).loc Cert.ReferenceIdeal.main_arg0)) (m' ((c.tc : Thread Cert.ReferenceIdeal.nD Cert.ReferenceIdeal.τ).loc Cert.ReferenceIdeal.main_arg1)) (m' ((c.tc : Thread Cert.ReferenceIdeal.nD Cert.ReferenceIdeal.τ).loc Cert.ReferenceIdeal.main_arg2)) (m' ((c.tc : Thread Cert.ReferenceIdeal.nD Cert.ReferenceIdeal.τ).loc Cert.ReferenceIdeal.main_arg3)) (m' ((c.tc : Thread Cert.ReferenceIdeal.nD Cert.ReferenceIdeal.τ).loc Cert.ReferenceIdeal.main_arg4)) (m' ((c.tc : Thread Cert.ReferenceIdeal.nD Cert.ReferenceIdeal.τ).loc Cert.ReferenceIdeal.main_arg5)) (m' ((c.tc : Thread Cert.ReferenceIdeal.nD Cert.ReferenceIdeal.τ).loc Cert.ReferenceIdeal.main_arg6)) (m' ((c.tc : Thread Cert.ReferenceIdeal.nD Cert.ReferenceIdeal.τ).loc Cert.ReferenceIdeal.main_arg7)) (m' ((c.tc : Thread Cert.ReferenceIdeal.nD Cert.ReferenceIdeal.τ).loc Cert.ReferenceIdeal.main_arg8)) (m' ((c.tc : Thread Cert.ReferenceIdeal.nD Cert.ReferenceIdeal.τ).loc Cert.ReferenceIdeal.main_arg9)) (m' ((c.tc : Thread Cert.ReferenceIdeal.nD Cert.ReferenceIdeal.τ).loc Cert.ReferenceIdeal.main_arg10)) (m' ((c.tc : Thread Cert.ReferenceIdeal.nD Cert.ReferenceIdeal.τ).loc Cert.ReferenceIdeal.main_arg11))).trans
      (Cert.Bridge.results_of_agree m hpre c _ _ _ _ _ _ _ _ _ _ _ _ a0 a1 a2 a3 a4 a5 a6 a7 a8 a9 a10 a11).2

theorem claim : Cert.Claim := ⟨Cert.Kernel.Gen.facts, Cert.KernelIdeal.Gen.facts, Cert.ReferenceIdeal.Gen.facts, Cert.Pre_finite_inputs.Gen.facts,
  fun m ρ _ => Cert.Kernel.Gen.frame m ρ,
  fun m ρ _ => Cert.KernelIdeal.Gen.frame m ρ,
  frame_ri,
  trivial,
  algebraic⟩

end Cert.Proof

end
